-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S4000x256 : Shape := ⟨2, ![4000, 256]⟩
abbrev S4000x1 : Shape := ⟨2, ![4000, 1]⟩
abbrev S4000x64 : Shape := ⟨2, ![4000, 64]⟩
abbrev S1700000x64 : Shape := ⟨2, ![1700000, 64]⟩
abbrev S1x64 : Shape := ⟨2, ![1, 64]⟩
abbrev S1x40 : Shape := ⟨2, ![1, 40]⟩
abbrev S100000x40 : Shape := ⟨2, ![100000, 40]⟩
abbrev S4000x40 : Shape := ⟨2, ![4000, 40]⟩
abbrev S4000 : Shape := ⟨1, ![4000]⟩

abbrev nBuf : Space → Nat
  | .hbm => 64
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .bf16⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x64, .bf16⟩
  | .hbm, ⟨40, _⟩ => ⟨S1700000x64, .f32⟩
  | .hbm, ⟨41, _⟩ => ⟨S_, .f32⟩
  | .hbm, ⟨42, _⟩ => ⟨S100000x64, .f32⟩
  | .hbm, ⟨43, _⟩ => ⟨S1700000x1, .i32⟩
  | .hbm, ⟨44, _⟩ => ⟨S100000x64, .f32⟩
  | .hbm, ⟨45, _⟩ => ⟨S1x64, .f32⟩
  | .hbm, ⟨46, _⟩ => ⟨S100000x64, .bf16⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .bf16⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S1x40, .f32⟩
  | .hbm, ⟨63, _⟩ => ⟨S100000x40, .f32⟩
  | .local _ .vmem, ⟨0, _⟩ => ⟨S4000x256, .f32⟩
  | .local _ .vmem, ⟨1, _⟩ => ⟨S4000x256, .f32⟩
  | .local _ .vmem, ⟨2, _⟩ => ⟨S256x64, .f32⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x64, .f32⟩
  | .local _ .vmem, ⟨13, _⟩ => ⟨S4000x64, .bf16⟩
  | .local _ .vmem, ⟨14, _⟩ => ⟨S4000x64, .bf16⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S1x64, .f32⟩
  | .local _ .vmem, ⟨20, _⟩ => ⟨S64x40, .f32⟩
  | .local _ .vmem, ⟨21, _⟩ => ⟨S1x40, .f32⟩
  | .local _ .vmem, ⟨22, _⟩ => ⟨S4000x40, .f32⟩
  | .local _ .vmem, ⟨23, _⟩ => ⟨S4000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S1700000x1_S1700000_n_0_0_1_wf : ScatterDims.WF S100000 S1700000x1 S1700000 [] [0] [0] 1
  dot_S4000x256_S256x64_S4000x64_1_0_0_1_n_n_wf : DotDims.WF S4000x256 S256x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x64_S4000x64_1_0_0_1_n_n_wf : DotDims.WF S4000x64 S64x64 S4000x64 [1] [0] [0] [1] [] []
  dot_S4000x64_S64x40_S4000x40_1_0_0_1_n_n_wf : DotDims.WF S4000x64 S64x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .bf16 = 32 ∨ (Rect.block (s := S100000x64) S4000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x40.size a ≤ S64x40.size a
  hwx2_3 : ∀ i : grid2.Coords, EltTy.bits .f32 = 32 ∨ (Rect.block (s := S64x40) S64x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x40.size a ≤ S100000x40.size a
  hwx2_5 : ∀ i : grid2.Coords, EltTy.bits .f32 = 32 ∨ (Rect.block (s := S100000x40) S4000x40.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S4000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 145
  | .vmem => 0
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x64, .f32⟩
  | 117 => ⟨S1700000x1, .f32⟩
  | 118 => ⟨S1700000x64, .f32⟩
  | 119 => ⟨S1700000x64, .f32⟩
  | 120 => ⟨S_, .f32⟩
  | 121 => ⟨S100000x64, .f32⟩
  | 122 => ⟨S1700000x1, .i32⟩
  | 123 => ⟨S100000x64, .f32⟩
  | 124 => ⟨S1x64, .f32⟩
  | 125 => ⟨S100000x64, .f32⟩
  | 126 => ⟨S100000x64, .f32⟩
  | 127 => ⟨S100000x40, .f32⟩
  | _ => ⟨S100000x256, .f32⟩

abbrev hbmTy0_1 (i : Nat) : BufTy := match i % 128 with
  | 0 => ⟨S1x40, .f32⟩
  | 1 => ⟨S100000x40, .f32⟩
  | 2 => ⟨S100000x40, .f32⟩
  | 3 => ⟨S_, .f32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x40, .f32⟩
  | 10 => ⟨S100000x40, .f32⟩
  | 11 => ⟨S100000x40, .f32⟩
  | 12 => ⟨S_, .f32⟩
  | 13 => ⟨S100000, .f32⟩
  | 14 => ⟨S100000x1, .f32⟩
  | 15 => ⟨S100000x40, .f32⟩
  | 16 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_20 : Ref sig .tc := ⟨.hbm, 131, rfl⟩
abbrev main_v95 : Ref sig .tc := ⟨.hbm, 132, rfl⟩
abbrev main_cst_21 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_22 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Spec.lean ====
/-
  Two rounds of neighbourhood averaging over a graph and a row softmax, as functions of matrices of extended reals.

  A graph on N = 100000 nodes is given by E = 1700000 arcs (the listed ones and one loop per node); arc e goes from node s e to
  node d e. A round takes a matrix h with one row per node: every arc carries the row of its source, weighted, to its target, and
  a node's new row is the sum of what arrives. The weight of an arc is dv (s e) * dv (d e), with dv v the inverse square root of
  the number of arcs arriving at v. There are two ways to spend the weight:
    * on the arc:   sum over the arcs e arriving at v of  h (s e) * (dv (s e) * dv (d e));
    * on the nodes: scale row u of h by dv u first, sum the scaled rows over the arcs arriving at v, then scale the sum by dv v.
  Every arc arriving at v has d e = v, so the second factor is the same for all of them and moves out of the sum; that is
  all the difference between the two, and it holds on the extended reals because dv v is a real number that is not negative
  (multiplying by such a number distributes over any sum of extended reals, infinite terms included).

  The arcs arriving at a node are told by the accumulating scatter's own rule (an arc whose target is not a node arrives
  nowhere), and a row is fetched by the gather's own rule (a source outside the nodes is moved to the nearest node): both are
  kept as the library's operations here, over this file's own copies of their dimension numbers.
-/
import Idealize.ShloMosaic.PureOps.Ideal
import Idealize.ShloMosaic.PureOps.Ideal.Laws
import Idealize.ShloMosaic.PureOps.ShapeOps
import Idealize.ShloMosaic.Lib.ValueIdx

noncomputable section

namespace Cert.Gcn

open Idealize.ShloMosaic Idealize.ShloMosaic.ValueIdx

/-- A matrix of extended reals with n rows and k columns. -/
abbrev Mat (n k : ℕ) : Type := (⟨2, ![n, k]⟩ : Shape).Idx → EReal
/-- A vector of n extended reals. -/
abbrev Col (n : ℕ) : Type := (⟨1, ![n]⟩ : Shape).Idx → EReal
/-- A list of e node numbers, as 32-bit words, one per arc. -/
abbrev Ids (e : ℕ) : Type := IVec ⟨2, ![e, 1]⟩ 32

/-- The row and the column of a matrix index. -/
abbrev rowOf {n k : ℕ} (i : (⟨2, ![n, k]⟩ : Shape).Idx) : Fin n := i 0
abbrev colOf {n k : ℕ} (i : (⟨2, ![n, k]⟩ : Shape).Idx) : Fin k := i 1

/-- The number zero and minus infinity as the programs write them. -/
abbrev z0 : EReal := Ideal.ofBits .f32 0x00000000#32
abbrev ninf : EReal := Ideal.ofBits .f32 0xFF800000#32

/-- A vector as a one-row matrix, and as a one-column matrix. -/
def rowMat {k : ℕ} (b : Col k) : Mat 1 k := fun i => b (ix1 (colOf i))
def colMat {n : ℕ} (v : Col n) : Mat n 1 := fun i => v (ix1 (rowOf i))

/-- The matrix product. -/
def mm {n k c : ℕ} (a : Mat n k) (w : Mat k c) : Mat n c := fun i => ∑ q : Fin k, a (ix2 (rowOf i) q) * w (ix2 q (colOf i))
/-- Row r scaled by the r-th entry of a one-column matrix. -/
def scaleRows {n k : ℕ} (a : Mat n k) (dv : Mat n 1) : Mat n k := fun i => a i * dv (ix2 (rowOf i) 0)
/-- A one-row matrix added to every row. -/
def addRow {n k : ℕ} (a : Mat n k) (b : Mat 1 k) : Mat n k := fun i => a i + b (ix2 0 (colOf i))
/-- The entrywise maximum with zero. -/
def relu {n k : ℕ} (a : Mat n k) : Mat n k := fun i => max (a i) z0
/-- The largest entry of row r, from minus infinity. -/
def rowMax {n c : ℕ} (L : Mat n c) (r : Fin n) : EReal := (Finset.univ : Finset (Fin c)).fold max ninf (fun q => L (ix2 r q))
/-- The softmax of every row: exponentials of the entries less the row's largest, over their sum. -/
def softmaxRows {n c : ℕ} (L : Mat n c) : Mat n c := fun i =>
  Ideal.div (Ideal.exp (L i - rowMax L (rowOf i))) (∑ q : Fin c, Ideal.exp (L (ix2 (rowOf i) q) - rowMax L (rowOf i)))

theorem rowMat_apply {k : ℕ} (b : Col k) (u : Fin 1) (e : Fin k) : rowMat b (ix2 u e) = b (ix1 e) := rfl
theorem colMat_apply {n : ℕ} (v : Col n) (p : Fin n) (u : Fin 1) : colMat v (ix2 p u) = v (ix1 p) := rfl
theorem mm_apply {n k c : ℕ} (a : Mat n k) (w : Mat k c) (p : Fin n) (e : Fin c) :
    mm a w (ix2 p e) = ∑ q : Fin k, a (ix2 p q) * w (ix2 q e) := rfl
theorem scaleRows_apply {n k : ℕ} (a : Mat n k) (dv : Mat n 1) (p : Fin n) (e : Fin k) :
    scaleRows a dv (ix2 p e) = a (ix2 p e) * dv (ix2 p 0) := rfl
theorem addRow_apply {n k : ℕ} (a : Mat n k) (b : Mat 1 k) (p : Fin n) (e : Fin k) :
    addRow a b (ix2 p e) = a (ix2 p e) + b (ix2 0 e) := rfl
theorem relu_apply {n k : ℕ} (a : Mat n k) (i : (⟨2, ![n, k]⟩ : Shape).Idx) : relu a i = max (a i) z0 := rfl
theorem softmaxRows_apply {n c : ℕ} (L : Mat n c) (p : Fin n) (e : Fin c) :
    softmaxRows L (ix2 p e)
      = Ideal.div (Ideal.exp (L (ix2 p e) - rowMax L p)) (∑ q : Fin c, Ideal.exp (L (ix2 p q) - rowMax L p)) := rfl

/-! ## The three dense stages, each a function of whole matrices -/

/-- The first stage: the product, each row scaled by the row's factor. -/
def stage0 {n : ℕ} (x : Mat n 256) (w : Mat 256 64) (dv : Mat n 1) : Mat n 64 := scaleRows (mm x w) dv
/-- The middle stage: the sums scaled by the target's factor, the bias row added, the negative part dropped; then the product,
    each row scaled by the row's factor. -/
def stage1 {n : ℕ} (agg : Mat n 64) (dv : Mat n 1) (b : Mat 1 64) (w : Mat 64 64) : Mat n 64 :=
  scaleRows (mm (relu (addRow (scaleRows agg dv) b)) w) dv
/-- The last stage: the sums scaled by the target's factor, the bias row added; then the product, its bias row, and the softmax
    of every row. -/
def stage2 {n : ℕ} (agg : Mat n 64) (dv : Mat n 1) (b : Mat 1 64) (w : Mat 64 40) (bo : Mat 1 40) : Mat n 40 :=
  softmaxRows (addRow (mm (addRow (scaleRows agg dv) b) w) bo)

/-! ## Sums over the arcs arriving at a node -/

/-- Rows of a 100000-row matrix of 64 columns, added into the rows named by 1700000 targets. -/
def rowsScatter : ScatterDims ⟨2, ![100000, 64]⟩ ⟨2, ![1700000, 1]⟩ ⟨2, ![1700000, 64]⟩ where
  updateWindowDims := [1]
  insertedWindowDims := [0]
  scatterDimsToOperandDims := [0]
  indexVectorDim := 1
/-- Rows of a 100000-row matrix of 64 columns, fetched at 1700000 sources. -/
def rowsGather : GatherDims ⟨2, ![100000, 64]⟩ ⟨2, ![1700000, 1]⟩ ⟨2, ![1700000, 64]⟩ where
  offsetDims := [1]
  collapsedSliceDims := [0]
  operandBatchingDims := []
  startIndicesBatchingDims := []
  startIndexMap := [0]
  indexVectorDim := 1
  sliceSizes := ![1, 64]
/-- Entries of a vector of 100000, fetched at 1700000 places. -/
def entryGather : GatherDims ⟨1, ![100000]⟩ ⟨2, ![1700000, 1]⟩ ⟨1, ![1700000]⟩ where
  offsetDims := []
  collapsedSliceDims := [0]
  operandBatchingDims := []
  startIndicesBatchingDims := []
  startIndexMap := [0]
  indexVectorDim := 1
  sliceSizes := ![1]
/-- Entries added into the places of a vector of 100000 named by 1700000 targets. -/
def entryScatter : ScatterDims ⟨1, ![100000]⟩ ⟨2, ![1700000, 1]⟩ ⟨1, ![1700000]⟩ where
  updateWindowDims := []
  insertedWindowDims := [0]
  scatterDimsToOperandDims := [0]
  indexVectorDim := 1

/-- The weight spent on the nodes: the rows (already scaled at their sources) summed over the arcs arriving at each node. -/
def aggNodes (hs : Mat 100000 64) (sI dI : Ids 1700000) : Mat 100000 64 :=
  Ideal.hostScatterAdd rowsScatter (fun _ => z0) dI (Host.gather rowsGather hs sI)
/-- The weight spent on the arc: each fetched row times the product of the two factors fetched for the arc, summed over the arcs
    arriving at each node. -/
def aggArcs (h : Mat 100000 64) (dv : Col 100000) (sI dIg dI : Ids 1700000) : Mat 100000 64 :=
  Ideal.hostScatterAdd rowsScatter (fun _ => z0) dI
    (fun j => Host.gather rowsGather h sI j * (Host.gather entryGather dv sI (ix1 (rowOf j)) * Host.gather entryGather dv dIg (ix1 (rowOf j))))

/-! ## The two programs, end to end -/

/-- Weights on the nodes, three dense stages around two sums. -/
def nodesForm (x : Mat 100000 256) (sI dI : Ids 1700000) (dv : Mat 100000 1) (w1 : Mat 256 64) (b1 : Mat 1 64) (w2 : Mat 64 64)
    (b2 : Mat 1 64) (wo : Mat 64 40) (bo : Mat 1 40) : Mat 100000 40 :=
  stage2 (aggNodes (stage1 (aggNodes (stage0 x w1 dv) sI dI) dv b1 w2) sI dI) dv b2 wo bo

/-- Weights on the arcs. -/
def arcsForm (x : Mat 100000 256) (sI dIg dI : Ids 1700000) (dv : Col 100000) (w1 : Mat 256 64) (b1 : Col 64) (w2 : Mat 64 64)
    (b2 : Col 64) (wo : Mat 64 40) (bo : Col 40) : Mat 100000 40 :=
  softmaxRows (addRow (mm (addRow (aggArcs (mm (relu (addRow (aggArcs (mm x w1) dv sI dIg dI) (rowMat b1))) w2) dv sI dIg dI)
    (rowMat b2)) wo) (rowMat bo))

end Cert.Gcn

end
-- ==== Proof.LibFold.lean ====
/-
  Reading a fold of host operations in one pass.

  The contents of a buffer after a straight line of host operations is a fold: each operation rewrites the buffer it writes
  and leaves every other buffer as it was. The tactic below unfolds such a fold — also through a concatenation of lines and
  through nested folds — down to the operations' functions applied to the contents the fold starts from, visiting each
  shared intermediate once.
-/
import Idealize.ShloMosaic.Lib.StableHlo.Run
import Idealize.ShloMosaic.Lib.Pipeline.Frame

namespace Cert.LibFold

open Idealize.ShloMosaic Idealize.ShloMosaic.StableHlo

/-- Rewrites every `after ops V b` in the goal, for literal lines `ops` over literal references, to the operations' functions of
    `V` at the buffers read: one simplifier pass per round, and between rounds one rewrite at a time for a reshape's result and frame and
    for whatever occurrence the pass left. -/
macro "after_all" : tactic =>
  `(tactic| (try simp only [StableHlo.after_append, after_cons, after_nil]
             repeat (first
               | rw [reshape_result]
               | (rw [reshape_result_ne]; rotate_left; decide)
               | simp (disch := decide) only [StableHlo.after_append, after_cons, after_nil,
                   nullary_result', unary_result', binary_result', ternary_result', quaternary_result', nary4_result', nary_result',
                   unaryIndexed_result', binaryIndexed_result',
                   nullary_result_ne', unary_result_ne', binary_result_ne', ternary_result_ne', quaternary_result_ne',
                   nary_result_ne', unaryIndexed_result_ne', binaryIndexed_result_ne']
               | rw [nullary_result] | rw [unary_result] | rw [binary_result] | rw [ternary_result] | rw [quaternary_result]
               | rw [binaryIndexed_result] | rw [nary4_result] | rw [nary_result] | rw [unaryIndexed_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [binaryIndexed_result_ne]; rotate_left; decide)
               | (rw [nary_result_ne]; rotate_left; decide)
               | (rw [unaryIndexed_result_ne]; rotate_left; decide))))

end Cert.LibFold
-- ==== Proof.Region0A.lean ====
/-
  The first dense stage on one block of rows. The body's arithmetic takes a block x of 4000 rows of the node matrix, the
  whole 256×64 weight matrix w and the block's 4000 row factors d (a one-column matrix), and leaves, at row p and column e,
      (∑ q, x (p, q) * w (q, e)) * d (p, 0).
  On the extended reals the two roundings to the shorter format do nothing, the product accumulated into the zero matrix is
  the plain sum over the 256 inner positions, the cast of the column to its own shape is the identity, and the column
  repeated along the 64 columns reads at (p, e) its entry of row p.
-/
import proofs.«152167_j14405320311543_2_alg».proof.Proof.Gen.KernelIdeal.Skeleton
import proofs.«152167_j14405320311543_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages.Stage0

open Idealize.ShloMosaic Idealize.ShloMosaic.TcCoe Idealize.SL.Sem Idealize.ShloMosaic.ValueIdx
open Cert.KernelIdeal Cert.KernelIdeal.Gen Cert.Gcn

/-- A one-column matrix repeated along the columns: the entry at (p, e) is the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (e : Fin b) :
    broadcastTo ⟨2, ![a, b]⟩ v h (ix2 p e) = v (ix2 p (0 : Fin 1)) := by
  refine broadcastTo_apply v h (ix2 p e) (ix2 p (0 : Fin 1)) fun ax => ?_
  match ax with
  | ⟨0, _⟩ =>
    show p.val = if a = 1 then 0 else p.val
    split
    · have := p.isLt; omega
    · rfl
  | ⟨1, _⟩ => rfl

/-! ## The block product at an entry -/

/-- The left factor is read in the result's row … -/
theorem lhs_row (i : S4000x64.Idx) (q : dot_S4000x256_S256x64_S4000x64_1_0_0_1_n_n.contr.Idx) :
    (dot_S4000x256_S256x64_S4000x64_1_0_0_1_n_n.lhsIdx i q 0).val = (i 0).val := by
  unfold DotDims.lhsIdx
  rw [dif_neg (show ¬(0 : Fin S4000x256.rank) ∈ dot_S4000x256_S256x64_S4000x64_1_0_0_1_n_n.lhsBatch by decide), dif_pos (show (0 : Fin S4000x256.rank) ∈ dot_S4000x256_S256x64_S4000x64_1_0_0_1_n_n.lhsNonContracting by decide)]
  rfl
/-- … at the inner position; -/
theorem lhs_col (i : S4000x64.Idx) (q : dot_S4000x256_S256x64_S4000x64_1_0_0_1_n_n.contr.Idx) :
    (dot_S4000x256_S256x64_S4000x64_1_0_0_1_n_n.lhsIdx i q 1).val = (q ⟨0, by decide⟩).val :=
  dot_S4000x256_S256x64_S4000x64_1_0_0_1_n_n.lhsIdx_val_of_single rfl i q
/-- the right factor at the inner position … -/
theorem rhs_row (i : S4000x64.Idx) (q : dot_S4000x256_S256x64_S4000x64_1_0_0_1_n_n.contr.Idx) :
    (dot_S4000x256_S256x64_S4000x64_1_0_0_1_n_n.rhsIdx i q 0).val = (q ⟨0, by decide⟩).val :=
  dot_S4000x256_S256x64_S4000x64_1_0_0_1_n_n.rhsIdx_val_of_single rfl i q
/-- … in the result's column. -/
theorem rhs_col (i : S4000x64.Idx) (q : dot_S4000x256_S256x64_S4000x64_1_0_0_1_n_n.contr.Idx) :
    (dot_S4000x256_S256x64_S4000x64_1_0_0_1_n_n.rhsIdx i q 1).val = (i 1).val := by
  unfold DotDims.rhsIdx
  rw [dif_neg (show ¬(1 : Fin S256x64.rank) ∈ dot_S4000x256_S256x64_S4000x64_1_0_0_1_n_n.rhsBatch by decide), dif_pos (show (1 : Fin S256x64.rank) ∈ dot_S4000x256_S256x64_S4000x64_1_0_0_1_n_n.rhsNonContracting by decide)]
  rfl

/-- The product of a 4000×256 block and the 256×64 matrix, accumulated into the zero matrix, at row p and column e: the sum
    over the 256 inner positions of the products of the entries. -/
theorem matmul_block_apply (l : FVec Ideal S4000x256 .bf16) (r : FVec Ideal S256x64 .bf16) (p : Fin 4000) (e : Fin 64) :
    matmul (F := Ideal) dot_S4000x256_S256x64_S4000x64_1_0_0_1_n_n none l r (constant (F := Ideal) S4000x64 .f32 0x00000000#32) (ix2 p e)
      = ∑ q : Fin 256, l (ix2 p q) * r (ix2 q e) := by
  refine (Ideal.matmul_constant_zero_apply dot_S4000x256_S256x64_S4000x64_1_0_0_1_n_n none l r (ix2 p e)).trans ?_
  rw [← Equiv.sum_comp (contrEquiv1 dot_S4000x256_S256x64_S4000x64_1_0_0_1_n_n 256 rfl rfl).symm]
  refine Finset.sum_congr rfl fun k _ => ?_
  have hk := contrEquiv1_symm_val dot_S4000x256_S256x64_S4000x64_1_0_0_1_n_n 256 rfl rfl k
  have el : dot_S4000x256_S256x64_S4000x64_1_0_0_1_n_n.lhsIdx (ix2 p e) ((contrEquiv1 dot_S4000x256_S256x64_S4000x64_1_0_0_1_n_n 256 rfl rfl).symm k) = ix2 p k := funext fun a => Fin.ext (by
    match a with
    | ⟨0, _⟩ => exact lhs_row _ _
    | ⟨1, _⟩ => exact (lhs_col _ _).trans hk)
  have er : dot_S4000x256_S256x64_S4000x64_1_0_0_1_n_n.rhsIdx (ix2 p e) ((contrEquiv1 dot_S4000x256_S256x64_S4000x64_1_0_0_1_n_n 256 rfl rfl).symm k) = ix2 k e := funext fun a => Fin.ext (by
    match a with
    | ⟨0, _⟩ => exact (rhs_row _ _).trans hk
    | ⟨1, _⟩ => exact rhs_col _ _)
  rw [el, er]

/-! ## The body's arithmetic at an entry -/

/-- What the body computes from a block of rows, the weight matrix and the block's row factors, at row p and column e: the
    first stage's formula in the blocks' entries. -/
theorem pay_apply (x0 : Vec Ideal S4000x256 .f32) (x1 : Vec Ideal S256x64 .f32) (x2 : Vec Ideal S4000x1 .f32) (p : Fin 4000) (e : Fin 64) :
    k0_pay1 (F := Ideal) x0 x1 x2 (ix2 p e) = (∑ q : Fin 256, x0 (ix2 p q) * x1 (ix2 q e)) * x2 (ix2 p (0 : Fin 1)) := by
  unfold k0_pay1
  refine (truncf_apply (φ := .f32) (ψ := .bf16) _ bitsLt_bf16_f32 (ix2 p e)).trans ?_
  refine (mulf_apply (φ := .f32) _ _ (ix2 p e)).trans ?_
  refine congrArg₂ (· * ·) ?_ ?_
  · exact matmul_block_apply _ _ p e
  · refine (broadcastTo_a1_ab_apply _ _ p e).trans ?_
    rw [shapeCast_self]

end Cert.KernelIdeal.Stages.Stage0

end
-- ==== Proof.Region0.lean ====
/-
  The first dense stage over the whole node matrix. The rows are cut into 25 blocks of 4000; the block of rows
  4000·t … 4000·t + 3999 is computed at step t from the same rows of the node matrix and of the one-column matrix of row
  factors and from the whole weight matrix, and is written to the same rows of the result. Entry (p, e) of block t is entry
  (4000·t + p, e) of the whole-matrix formula, and every row lies in exactly the block numbered by its quotient by 4000, so the
  result is the first stage of the three whole matrices.
-/
import proofs.«152167_j14405320311543_2_alg».proof.Proof.Gen.KernelIdeal.Frame
import proofs.«152167_j14405320311543_2_alg».proof.Proof.Spec
import proofs.«152167_j14405320311543_2_alg».proof.Proof.Region0A
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

namespace Stage0

theorem zero_offsets : (![0, 0] : Fin 2 → Nat) = fun _ => 0 := funext fun a => by fin_cases a <;> rfl

/-- Two functions of a 4000×64 index agree when they agree at every row and column. -/
theorem ext_rows_cols {α : Type} (f g : S4000x64.Idx → α) (h : ∀ (p : Fin 4000) (e : Fin 64), f (ix2 p e) = g (ix2 p e)) : f = g :=
  funext fun j => by
    obtain ⟨p, e, rfl⟩ : ∃ (p : Fin 4000) (e : Fin 64), j = ix2 p e := ⟨j 0, j 1, eq_ix2 j⟩
    exact h p e

/-- One block of the first stage: when x0 holds rows 4000·b … of the node matrix A, x1 the weight matrix W and x2 the same rows
    of the row factors D, the body's arithmetic at (p, e) is the first stage of A, W, D at row 4000·b + p and column e. -/
theorem block_entry (A : Mat 100000 256) (W : Mat 256 64) (D : Mat 100000 1)
    (x0 : Vec Ideal S4000x256 .f32) (x1 : Vec Ideal S256x64 .f32) (x2 : Vec Ideal S4000x1 .f32) (b : ℕ) (hb : b ≤ 24)
    (h0 : ∀ (p : Fin 4000) (q : Fin 256), x0 (ix2 p q) = A (ix2 (⟨b * 4000 + p.val, by have := p.isLt; omega⟩ : Fin 100000) q))
    (h1 : ∀ (q : Fin 256) (e : Fin 64), x1 (ix2 q e) = W (ix2 q e))
    (h2 : ∀ (p : Fin 4000), x2 (ix2 p (0 : Fin 1)) = D (ix2 (⟨b * 4000 + p.val, by have := p.isLt; omega⟩ : Fin 100000) (0 : Fin 1)))
    (p : Fin 4000) (e : Fin 64) (i : S100000x64.Idx) (hi0 : (i 0).val = b * 4000 + p.val) (hi1 : (i 1).val = e.val) :
    k0_pay1 (F := Ideal) x0 x1 x2 (ix2 p e) = stage0 A W D i := by
  have hlt : b * 4000 + p.val < 100000 := by clear hi0 hi1; have := p.isLt; omega
  have hi : i = ix2 (⟨b * 4000 + p.val, hlt⟩ : Fin 100000) e := by
    funext a
    match a with
    | ⟨0, _⟩ => exact Fin.ext hi0
    | ⟨1, _⟩ => exact Fin.ext hi1
  rw [hi, pay_apply]
  unfold stage0
  rw [scaleRows_apply, mm_apply, h2]
  refine congrArg (· * _) ?_
  refine Finset.sum_congr rfl fun q _ => ?_
  rw [h0, h1]

end Stage0

open Stage0

variable (V : (c : Dev nD) → (b : Ref sig .tc) → Buf (Elt Ideal) ((c : Thread nD τ).loc b))

namespace Stage0

/-- The blocks' positions at step t: the node rows and the row factors move with the result's rows, in the first and only block
    of columns; the weight matrix is whole; the result's block numbers are 0 … 24. -/
theorem block_positions : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 24 ∧ win0_3.index t (1 : Fin 2) = 0 :=
  (by decide +kernel : ∀ t : Fin grid0.N, _)

/-- Every block of rows is some step's. -/
theorem block_onto : ∀ q0 : Fin 25, ∃ t : Fin cfg0.N, win0_3.index t = ![q0.val, 0] :=
  (by decide +kernel : ∀ q0 : Fin 25, ∃ t : Fin grid0.N, win0_3.index t = ![q0.val, 0])

/-- What step t writes back is block t of the first stage of the three matrices as the region finds them. -/
theorem flushed_eq (c : Dev nD) (t : Fin cfg0.N) :
    (dat0 (F := Ideal) V c).flushed 3 t
      = ((cfg0.win 3).blk t).view.read (Elt Ideal) (stage0 (V c main_arg0 : S100000x256.Idx → EReal) (V c main_arg2 : S256x64.Idx → EReal) (V c main_v15 : S100000x1.Idx → EReal) : S100000x64.Idx → EReal) := by
  show (cfg0.win 3).cut (grid0.coords t) ((dat0 V c).after 3 t) = _
  rw [after0_3]
  unfold out0_3
  rw [View.canon_unit_zero zero_offsets]
  simp only [View.ld_unit_zero (S := S4000x256) zero_offsets, View.ld_unit_zero (S := S256x64) zero_offsets, View.ld_unit_zero (S := S4000x1) zero_offsets]
  obtain ⟨e0, e1, e2, e3, e4, e5, e6, e7⟩ := block_positions t
  refine ext_rows_cols _ _ fun p e => ?_
  have hp : p.val < 4000 := p.isLt
  have he : e.val < 64 := e.isLt
  show k0_pay1 (F := Ideal) (iblk0 V c 0 t) (iblk0 V c 1 t) (iblk0 V c 2 t) (ix2 p e)
    = stage0 (V c main_arg0 : S100000x256.Idx → EReal) (V c main_arg2 : S256x64.Idx → EReal) (V c main_v15 : S100000x1.Idx → EReal) (((cfg0.win 3).blk t).view.emb (ix2 p e))
  refine block_entry (V c main_arg0) (V c main_arg2) (V c main_v15) (iblk0 V c 0 t) (iblk0 V c 1 t) (iblk0 V c 2 t)
    (win0_3.index t (0 : Fin 2)) e6 (fun p' q => ?_) (fun q e' => ?_) (fun p' => ?_) p e (((cfg0.win 3).blk t).view.emb (ix2 p e)) ?_ ?_
  · have hp' : p'.val < 4000 := p'.isLt
    show V c main_arg0 (((cfg0.win 0).blk t).view.emb (ix2 p' q)) = V c main_arg0 _
    refine congrArg (V c main_arg0) (funext fun a => Fin.ext ?_)
    match a with
    | ⟨0, _⟩ => show win0_0.index t (0 : Fin 2) * 4000 + 1 * p'.val = win0_3.index t (0 : Fin 2) * 4000 + p'.val; omega
    | ⟨1, _⟩ => show win0_0.index t (1 : Fin 2) * 256 + 1 * q.val = q.val; omega
  · show V c main_arg2 (((cfg0.win 1).blk t).view.emb (ix2 q e')) = V c main_arg2 _
    refine congrArg (V c main_arg2) (funext fun a => Fin.ext ?_)
    match a with
    | ⟨0, _⟩ => show win0_1.index t (0 : Fin 2) * 256 + 1 * q.val = q.val; omega
    | ⟨1, _⟩ => show win0_1.index t (1 : Fin 2) * 64 + 1 * e'.val = e'.val; omega
  · have hp' : p'.val < 4000 := p'.isLt
    show V c main_v15 (((cfg0.win 2).blk t).view.emb (ix2 p' (0 : Fin 1))) = V c main_v15 _
    refine congrArg (V c main_v15) (funext fun a => Fin.ext ?_)
    match a with
    | ⟨0, _⟩ => show win0_2.index t (0 : Fin 2) * 4000 + 1 * p'.val = win0_3.index t (0 : Fin 2) * 4000 + p'.val; omega
    | ⟨1, _⟩ => show win0_2.index t (1 : Fin 2) * 1 + 1 * 0 = 0; omega
  · show win0_3.index t (0 : Fin 2) * 4000 + 1 * p.val = win0_3.index t (0 : Fin 2) * 4000 + p.val; omega
  · show win0_3.index t (1 : Fin 2) * 64 + 1 * e.val = e.val; omega

/-- A row and column of the result are in step t's block iff each lies in the block's range. -/
theorem mem_blk (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v16).slice (win0_3.rect t)).set ↔ _
  rw [View.set_slice_whole, Rect.mem_set_unit]
  exact Iff.rfl

/-- Row r of the result is written at the step whose block number is the quotient of r by 4000. -/
theorem covered (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := block_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

end Stage0

/-- After the 25 steps the result holds the first stage of the node matrix, the weight matrix and the row factors. -/
theorem final0 (c : Dev nD) :
    (dat0 (F := Ideal) V c).arrAt 3 cfg0.N
      = (stage0 (V c main_arg0 : S100000x256.Idx → EReal) (V c main_arg2 : S256x64.Idx → EReal) (V c main_v15 : S100000x1.Idx → EReal) : S100000x64.Idx → EReal) :=
  (dat0 V c).arrAt_eq_of_cover 3 _ (fun t _ => Stage0.flushed_eq V c t) Stage0.covered

end Cert.KernelIdeal.Stages

end
-- ==== Proof.Region1A.lean ====
/-
  The arithmetic of the middle dense stage on one block of 4000 rows, entry by entry.

  The body reads a block of 4000 rows of the summed rows (64 columns), the same 4000 rows of the one-column matrix of
  node factors, the bias row and the 64 x 64 weight matrix, and leaves, at row p and column e,

      ( sum over q of  max (agg p q * dv p + b q) 0  *  w q e )  *  dv p :

  each summed row is scaled by its node's factor, the bias is added, the negative part is dropped, the row is multiplied
  into the weight matrix, and the product row is scaled by the node's factor again. That is the middle stage of the
  specification on a matrix of 4000 rows. The format changes in between are the identity on extended reals.
-/
import proofs.«152167_j14405320311543_2_alg».proof.Proof.Gen.KernelIdeal.Skeleton
import proofs.«152167_j14405320311543_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

namespace Stage1

/-- A one-column matrix broadcast along its rows reads, at row p and any column, the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- In the product of a 4000 x 64 block with the 64 x 64 weights, the left factor of the term at inner position q sits in the
    output's row … -/
theorem lhs_rows_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl
/-- … and in column q; -/
theorem lhs_rows_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- the right factor sits in row q … -/
theorem rhs_rows_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- … and in the output's column. -/
theorem rhs_rows_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

/-- The product of a block of 4000 rows with the 64 x 64 weights, accumulated from zero, at row p and column e: the sum
    over the 64 inner positions of the products. -/
theorem matmul_rows_apply (l : FVec Ideal S4000x64 .bf16) (r : FVec Ideal S64x64 .bf16) (p : Fin 4000) (e : Fin 64) :
    matmul (F := Ideal) dot_S4000x64_S64x64_S4000x64_1_0_0_1_n_n none l r (constant (F := Ideal) S4000x64 .f32 0x00000000#32) (ix2 p e)
      = ∑ q : Fin 64, l (ix2 p q) * r (ix2 q e) := by
  simp only [matmul]
  rw [Ideal.matmul_constant_zero_apply,
    ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p e)
      ((contrEquiv1 dot_S4000x64_S64x64_S4000x64_1_0_0_1_n_n 64 rfl rfl).symm k) = ix2 p k :=
    funext fun a => Fin.ext (by
      match a with
      | ⟨0, _⟩ => exact lhs_rows_0 _ _
      | ⟨1, _⟩ => exact (lhs_rows_1 _ _).trans hk)
  have er : dot_S4000x64_S64x64_S4000x64_1_0_0_1_n_n.rhsIdx (ix2 p e)
      ((contrEquiv1 dot_S4000x64_S64x64_S4000x64_1_0_0_1_n_n 64 rfl rfl).symm k) = ix2 k e :=
    funext fun a => Fin.ext (by
      match a with
      | ⟨0, _⟩ => exact (rhs_rows_0 _ _).trans hk
      | ⟨1, _⟩ => exact rhs_rows_1 _ _)
  rw [el, er]

/-- What the body computes, at row p and column e of the block, from the entries it loaded. -/
theorem pay_apply (x0 : Vec Ideal S4000x64 .f32) (x1 : Vec Ideal S4000x1 .f32) (x2 : Vec Ideal S1x64 .f32)
    (x3 : Vec Ideal S64x64 .f32) (x4 : Vec Ideal S4000x1 .f32) (p : Fin 4000) (e : Fin 64) :
    k1_pay1 (F := Ideal) x0 x1 x2 x3 x4 (ix2 p e)
      = (∑ q : Fin 64, max (x0 (ix2 p q) * x1 (ix2 p 0) + x2 (ix2 0 q)) z0 * x3 (ix2 q e)) * x4 (ix2 p 0) := by
  unfold k1_pay1
  simp only [shapeCast_self]
  rw [truncf_apply, mulf_apply, matmul_rows_apply, broadcastTo_a1_ab_apply]
  refine congrArg (· * x4 (ix2 p 0)) (Finset.sum_congr rfl fun q _ => ?_)
  rw [truncf_apply, truncf_apply, maximumf_apply, addf_apply, mulf_apply, broadcastTo_a1_ab_apply,
    broadcastTo_1b_ab_apply, broadcast_apply]
  rfl

/-- The middle stage of the specification at row r and column e. -/
theorem stage1_apply {n : ℕ} (agg : Mat n 64) (dv : Mat n 1) (b : Mat 1 64) (w : Mat 64 64) (r : Fin n) (e : Fin 64) :
    stage1 agg dv b w (ix2 r e)
      = (∑ q : Fin 64, max (agg (ix2 r q) * dv (ix2 r 0) + b (ix2 0 q)) z0 * w (ix2 q e)) * dv (ix2 r 0) := rfl

/-- When the loaded block of summed rows and of node factors holds, at its row p, row r of the whole matrices, and the bias
    row and the weights are loaded whole, the body's entry at (p, e) is the middle stage of the whole matrices at (r, e):
    the stage reads nothing of the matrices but row r. -/
theorem block_value (A : S100000x64.Idx → EReal) (dv : S100000x1.Idx → EReal) (b : S1x64.Idx → EReal) (w : S64x64.Idx → EReal)
    (x0 : Vec Ideal S4000x64 .f32) (x1 : Vec Ideal S4000x1 .f32) (x2 : Vec Ideal S1x64 .f32) (x3 : Vec Ideal S64x64 .f32)
    (r : Fin 100000) (p : Fin 4000) (e : Fin 64)
    (h0 : ∀ q : Fin 64, x0 (ix2 p q) = A (ix2 r q)) (h1 : x1 (ix2 p 0) = dv (ix2 r 0))
    (h2 : ∀ q : Fin 64, x2 (ix2 0 q) = b (ix2 0 q)) (h3 : ∀ q : Fin 64, x3 (ix2 q e) = w (ix2 q e)) :
    k1_pay1 (F := Ideal) x0 x1 x2 x3 x1 (ix2 p e) = stage1 A dv b w (ix2 r e) := by
  rw [pay_apply, stage1_apply, h1]
  refine congrArg (· * dv (ix2 r 0)) (Finset.sum_congr rfl fun q _ => ?_)
  rw [h0, h2, h3]

end Stage1

end Cert.KernelIdeal.Stages

end
-- ==== Proof.Region1.lean ====
/-
  The middle dense stage as the kernel runs it, block by block, is the middle stage of the specification on the whole
  matrices.

  The grid has 25 points. At point t the output window holds rows 4000 t … 4000 t + 3999 of the result, the windows of the
  summed rows and of the node factors hold the same rows of their matrices, and the bias row and the weights are held whole.
  A row of the stage depends on that row of the summed rows, that row's node factor, the bias row and the weights only, so what
  point t writes back is rows 4000 t … 4000 t + 3999 of the stage applied to the whole matrices. The 25 blocks tile the
  100000 rows (row i lies in block i / 4000), so after the last point the result array holds the stage of the whole matrices.
-/
import proofs.«152167_j14405320311543_2_alg».proof.Proof.Gen.KernelIdeal.Frame
import proofs.«152167_j14405320311543_2_alg».proof.Proof.Spec
import proofs.«152167_j14405320311543_2_alg».proof.Proof.Region1A
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

namespace Stage1

theorem zero_offsets : (![0, 0] : Fin 2 → Nat) = fun _ => 0 := funext fun a => by fin_cases a <;> rfl

/-- Where the five windows' blocks sit at each grid point: the summed rows and the node factors move with the output's rows,
    the bias row and the weights stay, and the output's row block stays below 25. -/
theorem block_places : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 24 ∧ win1_4.index t (1 : Fin 2) = 0 :=
  (by decide +kernel : ∀ t : Fin grid1.N, _)

/-- Every row block of the output is some point's. -/
theorem block_onto : ∀ q0 : Fin 25, ∃ t : Fin cfg1.N, win1_4.index t = ![q0.val, 0] :=
  (by decide +kernel : ∀ q0 : Fin 25, ∃ t : Fin grid1.N, win1_4.index t = ![q0.val, 0])

/-- The block of summed rows at point t holds, at its row p, row r of the matrix, r the output's row. -/
theorem read_agg (c : Dev nD) (t : Fin cfg1.N) (p : Fin 4000) (q : Fin 64) (r : Fin 100000)
    (hr : r.val = win1_4.index t (0 : Fin 2) * 4000 + p.val) :
    (iblk1 (F := Ideal) V c 0 t : Vec Ideal S4000x64 .f32) (ix2 p q) = (V c main_v27 : S100000x64.Idx → EReal) (ix2 r q) := by
  obtain ⟨e0, e1, -⟩ := block_places t
  unfold iblk1
  rw [View.read_apply]
  show V c main_v27 (((cfg1.win 0).blk t).view.emb (ix2 p q)) = V c main_v27 (ix2 r q)
  refine congrArg (V c main_v27) (funext fun a => Fin.ext ?_)
  match a with
  | ⟨0, _⟩ => show win1_0.index t (0 : Fin 2) * 4000 + 1 * p.val = r.val; omega
  | ⟨1, _⟩ => show win1_0.index t (1 : Fin 2) * 64 + 1 * q.val = q.val; omega

/-- The block of node factors at point t holds, at its row p, the factor of row r. -/
theorem read_dv (c : Dev nD) (t : Fin cfg1.N) (p : Fin 4000) (r : Fin 100000)
    (hr : r.val = win1_4.index t (0 : Fin 2) * 4000 + p.val) :
    (iblk1 (F := Ideal) V c 1 t : Vec Ideal S4000x1 .f32) (ix2 p 0) = (V c main_v15 : S100000x1.Idx → EReal) (ix2 r 0) := by
  obtain ⟨-, -, e2, e3, -⟩ := block_places t
  unfold iblk1
  rw [View.read_apply]
  show V c main_v15 (((cfg1.win 1).blk t).view.emb (ix2 p 0)) = V c main_v15 (ix2 r 0)
  refine congrArg (V c main_v15) (funext fun a => Fin.ext ?_)
  match a with
  | ⟨0, _⟩ => show win1_1.index t (0 : Fin 2) * 4000 + 1 * p.val = r.val; omega
  | ⟨1, _⟩ => show win1_1.index t (1 : Fin 2) * 1 + 1 * 0 = 0; omega

/-- The bias row is held whole at every point. -/
theorem read_bias (c : Dev nD) (t : Fin cfg1.N) (q : Fin 64) :
    (iblk1 (F := Ideal) V c 2 t : Vec Ideal S1x64 .f32) (ix2 0 q) = (V c main_v28 : S1x64.Idx → EReal) (ix2 0 q) := by
  obtain ⟨-, -, -, -, e4, e5, -⟩ := block_places t
  unfold iblk1
  rw [View.read_apply]
  show V c main_v28 (((cfg1.win 2).blk t).view.emb (ix2 0 q)) = V c main_v28 (ix2 0 q)
  refine congrArg (V c main_v28) (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-- The weights are held whole at every point. -/
theorem read_weights (c : Dev nD) (t : Fin cfg1.N) (q e : Fin 64) :
    (iblk1 (F := Ideal) V c 3 t : Vec Ideal S64x64 .f32) (ix2 q e) = (V c main_arg4 : S64x64.Idx → EReal) (ix2 q e) := by
  obtain ⟨-, -, -, -, -, -, e6, e7, -⟩ := block_places t
  unfold iblk1
  rw [View.read_apply]
  show V c main_arg4 (((cfg1.win 3).blk t).view.emb (ix2 q e)) = V c main_arg4 (ix2 q e)
  refine congrArg (V c main_arg4) (funext fun a => Fin.ext ?_)
  match a with
  | ⟨0, _⟩ => show win1_3.index t (0 : Fin 2) * 64 + 1 * q.val = q.val; omega
  | ⟨1, _⟩ => show win1_3.index t (1 : Fin 2) * 64 + 1 * e.val = e.val; omega

/-- What point t writes back is its block of rows of the middle stage of the whole matrices. -/
theorem flushed_eq (c : Dev nD) (t : Fin cfg1.N) :
    (dat1 (F := Ideal) V c).flushed 4 t
      = ((cfg1.win 4).blk t).view.read (Elt Ideal)
          (stage1 (V c main_v27 : S100000x64.Idx → EReal) (V c main_v15 : S100000x1.Idx → EReal)
            (V c main_v28 : S1x64.Idx → EReal) (V c main_arg4 : S64x64.Idx → EReal) : S100000x64.Idx → EReal) := by
  show (cfg1.win 4).cut (grid1.coords t) ((dat1 V c).after 4 t) = _
  rw [after1_4]
  unfold out1_4
  rw [View.canon_unit_zero zero_offsets]
  simp only [View.ld_unit_zero (S := S4000x64) zero_offsets, View.ld_unit_zero (S := S4000x1) zero_offsets,
    View.ld_unit_zero (S := S1x64) zero_offsets, View.ld_unit_zero (S := S64x64) zero_offsets]
  obtain ⟨-, -, -, -, -, -, -, -, e8, e9⟩ := block_places t
  funext j
  obtain ⟨p, e, rfl⟩ : ∃ (p : Fin 4000) (e : Fin 64), j = ix2 p e := ⟨j 0, j 1, eq_ix2 j⟩
  have hr : win1_4.index t (0 : Fin 2) * 4000 + p.val < 100000 := by have := p.isLt; omega
  show k1_pay1 (F := Ideal) (iblk1 V c 0 t) (iblk1 V c 1 t) (iblk1 V c 2 t) (iblk1 V c 3 t) (iblk1 V c 1 t) (ix2 p e)
    = stage1 (V c main_v27 : S100000x64.Idx → EReal) (V c main_v15 : S100000x1.Idx → EReal)
        (V c main_v28 : S1x64.Idx → EReal) (V c main_arg4 : S64x64.Idx → EReal) (((cfg1.win 4).blk t).view.emb (ix2 p e))
  refine (block_value _ _ _ _ (iblk1 V c 0 t) (iblk1 V c 1 t) (iblk1 V c 2 t) (iblk1 V c 3 t) ⟨_, hr⟩ p e
    (fun q => read_agg V c t p q _ rfl) (read_dv V c t p _ rfl) (fun q => read_bias V c t q)
    (fun q => read_weights V c t q e)).trans ?_
  refine congrArg (stage1 (V c main_v27 : S100000x64.Idx → EReal) (V c main_v15 : S100000x1.Idx → EReal)
        (V c main_v28 : S1x64.Idx → EReal) (V c main_arg4 : S64x64.Idx → EReal)) (funext fun a => Fin.ext ?_)
  match a with
  | ⟨0, _⟩ => show win1_4.index t (0 : Fin 2) * 4000 + p.val = win1_4.index t (0 : Fin 2) * 4000 + 1 * p.val; omega
  | ⟨1, _⟩ => show e.val = win1_4.index t (1 : Fin 2) * 64 + 1 * e.val; omega

/-- A row of the result lies in point t's block iff each coordinate lies in the block's range. -/
theorem mem_block (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v29).slice (win1_4.rect t)).set ↔ _
  rw [View.set_slice_whole, Rect.mem_set_unit]
  exact Iff.rfl

/-- Every entry of the result lies in some point's block: row i in block i / 4000. -/
theorem covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := block_onto ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

end Stage1

open Stage1

/-- After the last point the result array holds the middle stage of the whole matrices as the region found them. -/
theorem final1 (c : Dev nD) :
    (dat1 (F := Ideal) V c).arrAt 4 cfg1.N
      = (stage1 (V c main_v27 : S100000x64.Idx → EReal) (V c main_v15 : S100000x1.Idx → EReal) (V c main_v28 : S1x64.Idx → EReal) (V c main_arg4 : S64x64.Idx → EReal) : S100000x64.Idx → EReal) :=
  (dat1 (F := Ideal) V c).arrAt_eq_of_cover 4 _ (fun t _ => flushed_eq V c t) covered

end Cert.KernelIdeal.Stages

end
-- ==== Proof.Region2A.lean ====
import proofs.«152167_j14405320311543_2_alg».proof.Proof.Gen.KernelIdeal.Skeleton
import proofs.«152167_j14405320311543_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages

open Idealize.ShloMosaic Idealize.ShloMosaic.ValueIdx
open Cert.KernelIdeal Cert.KernelIdeal.Gen Cert.Gcn

namespace Stage2

/-! ## Two layout readings: a vector as a column, and a column repeated along the rows -/

section Layout
variable {α : Type}

/-- A vector of length a cast to an a-by-1 matrix reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 matrix broadcast to a-by-b reads, at (p, c), the one entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's arithmetic in two parts: the logits, and the softmax of each row -/

/-- The logits as the body computes them: the sums scaled row by row, the bias row added, the product with the
    weights, the second bias row added. -/
def logitsK (x0 : Vec Ideal S4000x64 .f32) (x1 : Vec Ideal S4000x1 .f32) (x2 : Vec Ideal S1x64 .f32) (x3 : Vec Ideal S64x40 .f32)
    (x4 : Vec Ideal S1x40 .f32) : FVec Ideal S4000x40 .f32 :=
  addf (matmul dot_S4000x64_S64x40_S4000x40_1_0_0_1_n_n none
      (truncf .bf16 (addf (mulf (shapeCast S4000x64 x0 shapeCasts_S4000x64_S4000x64)
          (broadcastTo S4000x64 (shapeCast S4000x1 x1 shapeCasts_S4000x1_S4000x1) broadcasts_S4000x1_S4000x64))
        (broadcastTo S4000x64 (shapeCast S1x64 x2 shapeCasts_S1x64_S1x64) broadcasts_S1x64_S4000x64)) bitsLt_bf16_f32)
      (truncf .bf16 x3 bitsLt_bf16_f32) (constant (F := Ideal) S4000x40 .f32 0x00000000#32))
    (broadcastTo S4000x40 (shapeCast S1x40 x4 shapeCasts_S1x40_S1x40) broadcasts_S1x40_S4000x40)

/-- The largest entry of each row, from minus infinity. -/
def rowMaxK (L : FVec Ideal S4000x40 .f32) : FVec Ideal S4000 .f32 :=
  multiReduction (F := Ideal) .maximumf [1] S4000 L 0xFF800000#32 reduces_S4000x40_S4000 (.inl rfl) rfl

/-- The sum of each row, from zero. -/
def rowSumK (E : FVec Ideal S4000x40 .f32) : FVec Ideal S4000 .f32 :=
  multiReduction (F := Ideal) .add [1] S4000 E 0x00000000#32 reduces_S4000x40_S4000 (.inl rfl) rfl

/-- One number per row, repeated along the row. -/
def colK (v : FVec Ideal S4000 .f32) : FVec Ideal S4000x40 .f32 :=
  broadcastTo S4000x40 (shapeCast S4000x1 v shapeCasts_S4000_S4000x1) broadcasts_S4000x1_S4000x40

/-- The exponentials of the entries less their row's largest. -/
def expK (L : FVec Ideal S4000x40 .f32) : FVec Ideal S4000x40 .f32 := exp (subf L (colK (rowMaxK L)))

/-- Those exponentials over their row's sum. -/
def softK (L : FVec Ideal S4000x40 .f32) : FVec Ideal S4000x40 .f32 := divf (expK L) (colK (rowSumK (expK L)))

/-- The body's one stored value is the row softmax of the logits. -/
theorem k2_pay1_eq (x0 : Vec Ideal S4000x64 .f32) (x1 : Vec Ideal S4000x1 .f32) (x2 : Vec Ideal S1x64 .f32) (x3 : Vec Ideal S64x40 .f32)
    (x4 : Vec Ideal S1x40 .f32) : k2_pay1 (F := Ideal) x0 x1 x2 x3 x4 = softK (logitsK x0 x1 x2 x3 x4) := rfl

end Stage2

end Cert.KernelIdeal.Stages

end
-- ==== Proof.Region2B.lean ====
import proofs.«152167_j14405320311543_2_alg».proof.Proof.Region2A
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages

open Idealize.ShloMosaic Idealize.ShloMosaic.ValueIdx
open Cert.KernelIdeal Cert.KernelIdeal.Gen Cert.Gcn

namespace Stage2

/-! ## Each part read at an entry -/

/-- Over row p, the index with column q inserted is (p, q). -/
theorem lift_row (p : Fin 4000) (q : Fin 40) : reduces_S4000x40_S4000.lift (ix1 p) q = ix2 p q :=
  funext fun a => Fin.ext (by
    match a with
    | ⟨0, _⟩ => rfl
    | ⟨1, _⟩ => rfl)

theorem rowMaxK_apply (L : FVec Ideal S4000x40 .f32) (p : Fin 4000) : rowMaxK L (ix1 p) = rowMax L p := by
  unfold rowMaxK rowMax
  refine (Ideal.multiReduction_maximumf_single L 0xFF800000#32 reduces_S4000x40_S4000 (.inl rfl) rfl (ix1 p)).trans ?_
  exact congrArg (fun f : Fin 40 → EReal => (Finset.univ : Finset (Fin 40)).fold max ninf f) (funext fun q => congrArg L (lift_row p q))

theorem rowSumK_apply (E : FVec Ideal S4000x40 .f32) (p : Fin 4000) : rowSumK E (ix1 p) = ∑ q : Fin 40, E (ix2 p q) := by
  unfold rowSumK
  refine (Ideal.multiReduction_add_single E 0x00000000#32 reduces_S4000x40_S4000 (.inl rfl) rfl (ix1 p)).trans ?_
  exact Finset.sum_congr rfl fun q _ => congrArg E (lift_row p q)

theorem colK_apply (v : FVec Ideal S4000 .f32) (p : Fin 4000) (e : Fin 40) : colK v (ix2 p e) = v (ix1 p) := by
  unfold colK
  exact (broadcastTo_a1_ab_apply _ broadcasts_S4000x1_S4000x40 p e).trans (shapeCast_a_a1_apply v shapeCasts_S4000_S4000x1 p 0)

theorem expK_apply (L : FVec Ideal S4000x40 .f32) (p : Fin 4000) (q : Fin 40) :
    expK L (ix2 p q) = Ideal.exp (L (ix2 p q) - rowMax L p) := by
  unfold expK
  show Ideal.exp (L (ix2 p q) - colK (rowMaxK L) (ix2 p q)) = _
  rw [colK_apply, rowMaxK_apply]

/-- The body's softmax is the softmax of every row. -/
theorem softK_apply (L : FVec Ideal S4000x40 .f32) (p : Fin 4000) (e : Fin 40) : softK L (ix2 p e) = softmaxRows L (ix2 p e) := by
  rw [softmaxRows_apply]
  unfold softK
  show Ideal.div (expK L (ix2 p e)) (colK (rowSumK (expK L)) (ix2 p e)) = _
  rw [colK_apply, rowSumK_apply, expK_apply]
  exact congrArg (Ideal.div _) (Finset.sum_congr rfl fun q _ => expK_apply L p q)

theorem softK_eq (L : FVec Ideal S4000x40 .f32) : softK L = softmaxRows L := by
  funext j
  obtain ⟨p, e, rfl⟩ : ∃ (p : Fin 4000) (e : Fin 40), j = ix2 p e := ⟨j 0, j 1, eq_ix2 j⟩
  exact softK_apply L p e

end Stage2

end Cert.KernelIdeal.Stages

end
-- ==== Proof.Region2C.lean ====
import proofs.«152167_j14405320311543_2_alg».proof.Proof.Region2A
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages

open Idealize.ShloMosaic Idealize.ShloMosaic.ValueIdx
open Cert.KernelIdeal Cert.KernelIdeal.Gen Cert.Gcn

namespace Stage2

/-! ## The logits read at an entry -/

theorem lhsIdx_row (i : S4000x40.Idx) (q : dot_S4000x64_S64x40_S4000x40_1_0_0_1_n_n.contr.Idx) :
    (dot_S4000x64_S64x40_S4000x40_1_0_0_1_n_n.lhsIdx i q 0).val = (i 0).val := by
  unfold DotDims.lhsIdx
  rw [dif_neg (show ¬(0 : Fin S4000x64.rank) ∈ dot_S4000x64_S64x40_S4000x40_1_0_0_1_n_n.lhsBatch by decide), dif_pos (show (0 : Fin S4000x64.rank) ∈ dot_S4000x64_S64x40_S4000x40_1_0_0_1_n_n.lhsNonContracting by decide)]
  rfl
theorem lhsIdx_col (i : S4000x40.Idx) (q : dot_S4000x64_S64x40_S4000x40_1_0_0_1_n_n.contr.Idx) :
    (dot_S4000x64_S64x40_S4000x40_1_0_0_1_n_n.lhsIdx i q 1).val = (q ⟨0, by decide⟩).val :=
  dot_S4000x64_S64x40_S4000x40_1_0_0_1_n_n.lhsIdx_val_of_single rfl i q
theorem rhsIdx_row (i : S4000x40.Idx) (q : dot_S4000x64_S64x40_S4000x40_1_0_0_1_n_n.contr.Idx) :
    (dot_S4000x64_S64x40_S4000x40_1_0_0_1_n_n.rhsIdx i q 0).val = (q ⟨0, by decide⟩).val :=
  dot_S4000x64_S64x40_S4000x40_1_0_0_1_n_n.rhsIdx_val_of_single rfl i q
theorem rhsIdx_col (i : S4000x40.Idx) (q : dot_S4000x64_S64x40_S4000x40_1_0_0_1_n_n.contr.Idx) :
    (dot_S4000x64_S64x40_S4000x40_1_0_0_1_n_n.rhsIdx i q 1).val = (i 1).val := by
  unfold DotDims.rhsIdx
  rw [dif_neg (show ¬(1 : Fin S64x40.rank) ∈ dot_S4000x64_S64x40_S4000x40_1_0_0_1_n_n.rhsBatch by decide), dif_pos (show (1 : Fin S64x40.rank) ∈ dot_S4000x64_S64x40_S4000x40_1_0_0_1_n_n.rhsNonContracting by decide)]
  rfl

/-- The product into the zero matrix, at (p, e): the sum over k of row p of the left factor against column e of the right. -/
theorem matmulK_apply (a : FVec Ideal S4000x64 .bf16) (w : FVec Ideal S64x40 .bf16) (p : Fin 4000) (e : Fin 40) :
    matmul dot_S4000x64_S64x40_S4000x40_1_0_0_1_n_n none a w (constant (F := Ideal) S4000x40 .f32 0x00000000#32) (ix2 p e)
      = ∑ k : Fin 64, a (ix2 p k) * w (ix2 k e) := by
  simp only [matmul]
  rw [Ideal.matmul_constant_zero_apply, ← Equiv.sum_comp (contrEquiv1 dot_S4000x64_S64x40_S4000x40_1_0_0_1_n_n 64 rfl rfl).symm]
  refine Finset.sum_congr rfl fun k _ => ?_
  have hk := contrEquiv1_symm_val dot_S4000x64_S64x40_S4000x40_1_0_0_1_n_n 64 rfl rfl k
  have el : dot_S4000x64_S64x40_S4000x40_1_0_0_1_n_n.lhsIdx (ix2 p e) ((contrEquiv1 dot_S4000x64_S64x40_S4000x40_1_0_0_1_n_n 64 rfl rfl).symm k) = ix2 p k := funext fun a => Fin.ext (by
    match a with
    | ⟨0, _⟩ => exact lhsIdx_row _ _
    | ⟨1, _⟩ => exact (lhsIdx_col _ _).trans hk)
  have er : dot_S4000x64_S64x40_S4000x40_1_0_0_1_n_n.rhsIdx (ix2 p e) ((contrEquiv1 dot_S4000x64_S64x40_S4000x40_1_0_0_1_n_n 64 rfl rfl).symm k) = ix2 k e := funext fun a => Fin.ext (by
    match a with
    | ⟨0, _⟩ => exact (rhsIdx_row _ _).trans hk
    | ⟨1, _⟩ => exact rhsIdx_col _ _)
  rw [el, er]

/-- The left factor at (p, k): entry (p, k) of the sums times row p's factor, plus entry k of the bias row. -/
theorem scaledRow_apply (x0 : Vec Ideal S4000x64 .f32) (x1 : Vec Ideal S4000x1 .f32) (x2 : Vec Ideal S1x64 .f32) (p : Fin 4000) (k : Fin 64) :
    (truncf .bf16 (addf (mulf (shapeCast S4000x64 x0 shapeCasts_S4000x64_S4000x64)
          (broadcastTo S4000x64 (shapeCast S4000x1 x1 shapeCasts_S4000x1_S4000x1) broadcasts_S4000x1_S4000x64))
        (broadcastTo S4000x64 (shapeCast S1x64 x2 shapeCasts_S1x64_S1x64) broadcasts_S1x64_S4000x64)) bitsLt_bf16_f32 : FVec Ideal S4000x64 .bf16) (ix2 p k)
      = addRow (scaleRows x0 x1) x2 (ix2 p k) := by
  rw [addRow_apply, scaleRows_apply]
  show (shapeCast S4000x64 x0 shapeCasts_S4000x64_S4000x64) (ix2 p k)
      * (broadcastTo S4000x64 (shapeCast S4000x1 x1 shapeCasts_S4000x1_S4000x1) broadcasts_S4000x1_S4000x64) (ix2 p k)
      + (broadcastTo S4000x64 (shapeCast S1x64 x2 shapeCasts_S1x64_S1x64) broadcasts_S1x64_S4000x64) (ix2 p k) = _
  rw [shapeCast_self, shapeCast_self, shapeCast_self]
  rw [broadcastTo_a1_ab_apply x1 broadcasts_S4000x1_S4000x64 p k, broadcastTo_1b_ab_apply x2 broadcasts_S1x64_S4000x64 p k]

/-- The logits as the body computes them are the logits of the last stage. -/
theorem logitsK_apply (x0 : Vec Ideal S4000x64 .f32) (x1 : Vec Ideal S4000x1 .f32) (x2 : Vec Ideal S1x64 .f32) (x3 : Vec Ideal S64x40 .f32)
    (x4 : Vec Ideal S1x40 .f32) (p : Fin 4000) (e : Fin 40) :
    logitsK x0 x1 x2 x3 x4 (ix2 p e) = addRow (mm (addRow (scaleRows x0 x1) x2) x3) x4 (ix2 p e) := by
  rw [addRow_apply, mm_apply]
  unfold logitsK
  refine (addf_apply _ _ _).trans ?_
  rw [matmulK_apply, shapeCast_self x4, broadcastTo_1b_ab_apply x4 broadcasts_S1x40_S4000x40 p e]
  exact congrArg (· + x4 (ix2 0 e)) (Finset.sum_congr rfl fun k _ => congrArg (· * x3 (ix2 k e)) (scaledRow_apply x0 x1 x2 p k))

/-- So the two are one matrix. -/
theorem logitsK_eq (x0 : Vec Ideal S4000x64 .f32) (x1 : Vec Ideal S4000x1 .f32) (x2 : Vec Ideal S1x64 .f32) (x3 : Vec Ideal S64x40 .f32)
    (x4 : Vec Ideal S1x40 .f32) : logitsK x0 x1 x2 x3 x4 = addRow (mm (addRow (scaleRows x0 x1) x2) x3) x4 := by
  funext j
  obtain ⟨p, e, rfl⟩ : ∃ (p : Fin 4000) (e : Fin 40), j = ix2 p e := ⟨j 0, j 1, eq_ix2 j⟩
  exact logitsK_apply x0 x1 x2 x3 x4 p e

end Stage2

end Cert.KernelIdeal.Stages

end
-- ==== Proof.Region2D.lean ====
import proofs.«152167_j14405320311543_2_alg».proof.Proof.Region2B
import proofs.«152167_j14405320311543_2_alg».proof.Proof.Region2C
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages

open Idealize.ShloMosaic Idealize.ShloMosaic.ValueIdx
open Cert.KernelIdeal Cert.KernelIdeal.Gen Cert.Gcn

namespace Stage2

/-! ## The body's stored value is the last stage of its blocks; the last stage works row by row -/

/-- The body's one stored value, as a function of the blocks it loads, is the last stage of those blocks. -/
theorem k2_pay1_stage2 (x0 : Vec Ideal S4000x64 .f32) (x1 : Vec Ideal S4000x1 .f32) (x2 : Vec Ideal S1x64 .f32) (x3 : Vec Ideal S64x40 .f32)
    (x4 : Vec Ideal S1x40 .f32) : k2_pay1 (F := Ideal) x0 x1 x2 x3 x4 = stage2 x0 x1 x2 x3 x4 := by
  rw [k2_pay1_eq, logitsK_eq, softK_eq]
  rfl

/-- Row r of the last stage depends on row r of the sums and on row r's factor only: two pairs of matrices, of any
    heights, that agree there give the same row. -/
theorem stage2_row {n n' : ℕ} (agg : Mat n 64) (dv : Mat n 1) (agg' : Mat n' 64) (dv' : Mat n' 1) (b : Mat 1 64) (w : Mat 64 40)
    (bo : Mat 1 40) (p : Fin n) (r : Fin n') (hagg : ∀ k : Fin 64, agg (ix2 p k) = agg' (ix2 r k))
    (hdv : dv (ix2 p 0) = dv' (ix2 r 0)) (e : Fin 40) :
    stage2 agg dv b w bo (ix2 p e) = stage2 agg' dv' b w bo (ix2 r e) := by
  have hL : ∀ q : Fin 40, addRow (mm (addRow (scaleRows agg dv) b) w) bo (ix2 p q)
      = addRow (mm (addRow (scaleRows agg' dv') b) w) bo (ix2 r q) := fun q => by
    simp only [addRow_apply, mm_apply, scaleRows_apply, hagg, hdv]
  have hM : rowMax (addRow (mm (addRow (scaleRows agg dv) b) w) bo) p = rowMax (addRow (mm (addRow (scaleRows agg' dv') b) w) bo) r := by
    unfold rowMax
    exact congrArg (fun f : Fin 40 → EReal => (Finset.univ : Finset (Fin 40)).fold max ninf f) (funext hL)
  unfold stage2
  rw [softmaxRows_apply, softmaxRows_apply, hM]
  simp only [hL]

end Stage2

end Cert.KernelIdeal.Stages

end
-- ==== Proof.Region2.lean ====
import proofs.«152167_j14405320311543_2_alg».proof.Proof.Gen.KernelIdeal.Frame
import proofs.«152167_j14405320311543_2_alg».proof.Proof.Spec
import proofs.«152167_j14405320311543_2_alg».proof.Proof.Region2D
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stages

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

namespace Stage2

/-! ## The third grid: 25 points, point t on rows 4000 t … 4000 t + 3999 -/

theorem zeroOffsets : (![0, 0] : Fin 2 → Nat) = fun _ => 0 := funext fun a => by fin_cases a <;> rfl

/-- The block indices at a point, decided over the 25 points: the sums' and the factors' windows sit on the output's block of
    rows, at column block 0; the two bias rows and the weights are whole; the output's row block is one of 0 … 24. -/
theorem blockIndex : ∀ t : Fin cfg2.N, win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 24 ∧ win2_5.index t (1 : Fin 2) = 0 :=
  (by decide +kernel : ∀ t : Fin grid2.N, _)

/-- Every block of 4000 rows is some point's. -/
theorem rowBlock_onto : ∀ q : Fin 25, ∃ t : Fin cfg2.N, win2_5.index t = ![q.val, 0] :=
  (by decide +kernel : ∀ q : Fin 25, ∃ t : Fin grid2.N, win2_5.index t = ![q.val, 0])

/-! ## The input blocks at a point, read off the arrays -/

/-- Row p of the sums' block at point t is row 4000 t + p of the sums. -/
theorem sums_block (c : Dev nD) (t : Fin cfg2.N) (p : Fin 4000) (k : Fin 64) (r : Fin 100000)
    (hr : r.val = win2_5.index t (0 : Fin 2) * 4000 + p.val) :
    (iblk2 V c 0 t : S4000x64.Idx → EReal) (ix2 p k) = (V c main_v40 : S100000x64.Idx → EReal) (ix2 r k) := by
  obtain ⟨e0, e1, -⟩ := blockIndex t
  unfold iblk2
  show V c main_v40 (((cfg2.win 0).blk t).view.emb (ix2 p k)) = V c main_v40 (ix2 r k)
  have h : ((cfg2.win 0).blk t).view.emb (ix2 p k) = ix2 r k := funext fun a => Fin.ext (by
    match a with
    | ⟨0, _⟩ => show win2_0.index t (0 : Fin 2) * 4000 + 1 * p.val = r.val; omega
    | ⟨1, _⟩ => show win2_0.index t (1 : Fin 2) * 64 + 1 * k.val = k.val; omega)
  rw [h]

/-- Row p of the factors' block at point t is row 4000 t + p of the factors. -/
theorem factor_block (c : Dev nD) (t : Fin cfg2.N) (p : Fin 4000) (r : Fin 100000)
    (hr : r.val = win2_5.index t (0 : Fin 2) * 4000 + p.val) :
    (iblk2 V c 1 t : S4000x1.Idx → EReal) (ix2 p 0) = (V c main_v15 : S100000x1.Idx → EReal) (ix2 r 0) := by
  obtain ⟨-, -, e2, e3, -⟩ := blockIndex t
  unfold iblk2
  show V c main_v15 (((cfg2.win 1).blk t).view.emb (ix2 p 0)) = V c main_v15 (ix2 r 0)
  have h : ((cfg2.win 1).blk t).view.emb (ix2 p 0) = ix2 r 0 := funext fun a => Fin.ext (by
    match a with
    | ⟨0, _⟩ => show win2_1.index t (0 : Fin 2) * 4000 + 1 * p.val = r.val; omega
    | ⟨1, _⟩ => show win2_1.index t (1 : Fin 2) * 1 + 1 * (0 : Fin 1).val = (0 : Fin 1).val; omega)
  rw [h]

/-- The first bias row's block is the whole row at every point. -/
theorem bias_block (c : Dev nD) (t : Fin cfg2.N) : (iblk2 V c 2 t : S1x64.Idx → EReal) = (V c main_v41 : S1x64.Idx → EReal) := by
  obtain ⟨-, -, -, -, e4, e5, -⟩ := blockIndex t
  funext y
  unfold iblk2
  show V c main_v41 (((cfg2.win 2).blk t).view.emb y) = V c main_v41 y
  have h : ((cfg2.win 2).blk t).view.emb y = y := funext fun a => Fin.ext (by
    match a with
    | ⟨0, _⟩ => show win2_2.index t (0 : Fin 2) * 1 + 1 * (y 0).val = (y 0).val; omega
    | ⟨1, _⟩ => show win2_2.index t (1 : Fin 2) * 64 + 1 * (y 1).val = (y 1).val; omega)
  rw [h]

/-- The weights' block is the whole matrix at every point. -/
theorem weights_block (c : Dev nD) (t : Fin cfg2.N) : (iblk2 V c 3 t : S64x40.Idx → EReal) = (V c main_arg6 : S64x40.Idx → EReal) := by
  obtain ⟨-, -, -, -, -, -, e6, e7, -⟩ := blockIndex t
  funext y
  unfold iblk2
  show V c main_arg6 (((cfg2.win 3).blk t).view.emb y) = V c main_arg6 y
  have h : ((cfg2.win 3).blk t).view.emb y = y := funext fun a => Fin.ext (by
    match a with
    | ⟨0, _⟩ => show win2_3.index t (0 : Fin 2) * 64 + 1 * (y 0).val = (y 0).val; omega
    | ⟨1, _⟩ => show win2_3.index t (1 : Fin 2) * 40 + 1 * (y 1).val = (y 1).val; omega)
  rw [h]

/-- The second bias row's block is the whole row at every point. -/
theorem outBias_block (c : Dev nD) (t : Fin cfg2.N) : (iblk2 V c 4 t : S1x40.Idx → EReal) = (V c main_v42 : S1x40.Idx → EReal) := by
  obtain ⟨-, -, -, -, -, -, -, -, e8, e9, -⟩ := blockIndex t
  funext y
  unfold iblk2
  show V c main_v42 (((cfg2.win 4).blk t).view.emb y) = V c main_v42 y
  have h : ((cfg2.win 4).blk t).view.emb y = y := funext fun a => Fin.ext (by
    match a with
    | ⟨0, _⟩ => show win2_4.index t (0 : Fin 2) * 1 + 1 * (y 0).val = (y 0).val; omega
    | ⟨1, _⟩ => show win2_4.index t (1 : Fin 2) * 40 + 1 * (y 1).val = (y 1).val; omega)
  rw [h]

/-! ## What a point writes back, and the array after the last point -/

/-- Point t writes back rows 4000 t … 4000 t + 3999 of the last stage of the whole arrays: the body's stored value is the last
    stage of its blocks, and the last stage works row by row. -/
theorem flushed_stage2 (c : Dev nD) (t : Fin cfg2.N) :
    (dat2 (F := Ideal) V c).flushed 5 t = ((cfg2.win 5).blk t).view.read (Elt Ideal) (stage2 (V c main_v40 : S100000x64.Idx → EReal) (V c main_v15 : S100000x1.Idx → EReal) (V c main_v41 : S1x64.Idx → EReal) (V c main_arg6 : S64x40.Idx → EReal) (V c main_v42 : S1x40.Idx → EReal) : S100000x40.Idx → EReal) := by
  show (cfg2.win 5).cut (grid2.coords t) ((dat2 V c).after 5 t) = _
  rw [after2_5]
  unfold out2_5
  rw [View.canon_unit_zero zeroOffsets]
  simp only [View.ld_unit_zero (S := S4000x64) zeroOffsets, View.ld_unit_zero (S := S4000x1) zeroOffsets,
    View.ld_unit_zero (S := S1x64) zeroOffsets, View.ld_unit_zero (S := S64x40) zeroOffsets, View.ld_unit_zero (S := S1x40) zeroOffsets]
  rw [k2_pay1_stage2]
  obtain ⟨-, -, -, -, -, -, -, -, -, -, e10, e11⟩ := blockIndex t
  funext j
  obtain ⟨p, e, rfl⟩ : ∃ (p : Fin 4000) (e : Fin 40), j = ix2 p e := ⟨j 0, j 1, eq_ix2 j⟩
  show stage2 (n := 4000) (iblk2 V c 0 t) (iblk2 V c 1 t) (iblk2 V c 2 t) (iblk2 V c 3 t) (iblk2 V c 4 t) (ix2 p e)
    = (stage2 (V c main_v40 : S100000x64.Idx → EReal) (V c main_v15 : S100000x1.Idx → EReal) (V c main_v41 : S1x64.Idx → EReal) (V c main_arg6 : S64x40.Idx → EReal) (V c main_v42 : S1x40.Idx → EReal) : S100000x40.Idx → EReal) (((cfg2.win 5).blk t).view.emb (ix2 p e))
  have hi : ((cfg2.win 5).blk t).view.emb (ix2 p e)
      = ix2 (⟨win2_5.index t (0 : Fin 2) * 4000 + p.val, by have := p.isLt; omega⟩ : Fin 100000) e := funext fun a => Fin.ext (by
    match a with
    | ⟨0, _⟩ => show win2_5.index t (0 : Fin 2) * 4000 + 1 * p.val = win2_5.index t (0 : Fin 2) * 4000 + p.val; omega
    | ⟨1, _⟩ => show win2_5.index t (1 : Fin 2) * 40 + 1 * e.val = e.val; omega)
  rw [hi, bias_block V c t, weights_block V c t, outBias_block V c t]
  exact stage2_row _ _ _ _ _ _ _ p _ (fun k => sums_block V c t p k _ rfl) (factor_block V c t p _ rfl) e

/-- An index of the array is in point t's block iff each coordinate is in the block's range on its axis. -/
theorem mem_block (t : Fin cfg2.N) (i : S100000x40.Idx) :
    i ∈ ((cfg2.win 5).blk t).view.set ↔ ∀ a : Fin 2, win2_5.index t a * S4000x40.size a ≤ (i a).val ∧ (i a).val < win2_5.index t a * S4000x40.size a + S4000x40.size a := by
  show i ∈ ((View.whole main_v43).slice (win2_5.rect t)).set ↔ _
  rw [View.set_slice_whole, Rect.mem_set_unit]
  exact Iff.rfl

/-- Row r is in the block of point r / 4000: the 25 blocks cover the array. -/
theorem covered (i : S100000x40.Idx) : ∃ t : Fin cfg2.N, (cfg2.win 5).flush t = true ∧ i ∈ ((cfg2.win 5).blk t).view.set := by
  have hi0 : (i 0).val < 100000 := (i 0).isLt
  have hi1 : (i 1).val < 40 := (i 1).isLt
  obtain ⟨t, ht⟩ := rowBlock_onto ⟨(i 0).val / 4000, by omega⟩
  have q0 : win2_5.index t (0 : Fin 2) = (i 0).val / 4000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 40 ≤ (i 1).val ∧ (i 1).val < win2_5.index t (1 : Fin 2) * 40 + 40; omega

end Stage2

open Stage2

/-- After the third grid the output array holds the last stage of the arrays the grid found. -/
theorem final2 (c : Dev nD) :
    (dat2 (F := Ideal) V c).arrAt 5 cfg2.N
      = (stage2 (V c main_v40 : S100000x64.Idx → EReal) (V c main_v15 : S100000x1.Idx → EReal) (V c main_v41 : S1x64.Idx → EReal) (V c main_arg6 : S64x40.Idx → EReal) (V c main_v42 : S1x40.Idx → EReal) : S100000x40.Idx → EReal) :=
  (dat2 V c).arrAt_eq_of_cover 5 _ (fun t _ => flushed_stage2 V c t) covered

example : Pipeline.arrRef spec0 3 = main_v16 := rfl
example : Pipeline.arrRef spec1 4 = main_v29 := rfl
example : Pipeline.arrRef spec2 5 = main_v43 := rfl
example : Pipeline.arrRef spec0 0 = main_arg0 ∧ Pipeline.arrRef spec0 1 = main_arg2 ∧ Pipeline.arrRef spec0 2 = main_v15 := ⟨rfl, rfl, rfl⟩
example : Pipeline.arrRef spec1 0 = main_v27 ∧ Pipeline.arrRef spec1 1 = main_v15 ∧ Pipeline.arrRef spec1 2 = main_v28 ∧ Pipeline.arrRef spec1 3 = main_arg4 := ⟨rfl, rfl, rfl, rfl⟩
example : Pipeline.arrRef spec2 0 = main_v40 ∧ Pipeline.arrRef spec2 1 = main_v15 ∧ Pipeline.arrRef spec2 2 = main_v41 ∧ Pipeline.arrRef spec2 3 = main_arg6 ∧ Pipeline.arrRef spec2 4 = main_v42 := ⟨rfl, rfl, rfl, rfl, rfl⟩

end Cert.KernelIdeal.Stages

end
-- ==== Proof.KernelRunA.lean ====
import proofs.«152167_j14405320311543_2_alg».proof.Proof.Gen.KernelIdeal.Frame
import Idealize.ShloMosaic.PureOps.Ideal

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of @main on the TensorCores, with its result array named: every final state has the result array at the
    last boundary's contents of the fold through @main's segments, and the argument arrays as launched. -/
theorem run_named : θ_run (defs (F := Ideal)) (onTc (τ := τ) (main (F := Ideal))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.KernelRunB.lean ====
import proofs.«152167_j14405320311543_2_alg».proof.Proof.Gen.KernelIdeal.Frame
import proofs.«152167_j14405320311543_2_alg».proof.Proof.Spec
import proofs.«152167_j14405320311543_2_alg».proof.Proof.LibFold
import Idealize.ShloMosaic.Lib.Pipeline.Value
import Idealize.ShloMosaic.Lib.StableHlo.Run
import Idealize.ShloMosaic.Lib.ValueIdx
import Idealize.ShloMosaic.Lib.IdealHost

set_option maxRecDepth 16384

noncomputable section

namespace Cert.KernelIdeal.RunValue

open Idealize.ShloMosaic Idealize.ShloMosaic.TcCoe Idealize.ShloMosaic.Tactic Idealize.ShloMosaic.ValueIdx
open Idealize.ShloMosaic.StableHlo
open Idealize.SL.Sem
open Idealize.ShloMosaic.Pipeline (Dat Cfg Window BodyObligation cellOf)
open Cert.KernelIdeal Cert.KernelIdeal.Gen Cert.Gcn Cert.LibFold

variable (m : (ℓ : Loc nD τ sig) → Buf (Elt Ideal) ℓ) (ρ : Dev nD → PrngReg)

/-- A buffer that no operation of a line writes holds after the line what it held before: the line's writes are read off
    one by one, and each differs from the buffer as a reference. -/
macro "host_keeps " ops:ident r:ident : tactic =>
  `(tactic| exact StableHlo.after_of_forall_not_mem (b := Proc.devRef .tc $r) _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The program's index words and per-node factor, as functions of the arc list -/

/-- The arcs' source words, one per arc, the listed arcs then one loop per node (main_v5). -/
def srcRaw (x1 : IVec S2x1600000 32) : IVec S1700000 32 :=
  (concatenate S1700000 0 [⟨S1600000, shapeCast S1600000 (extractStridedSlice S1x1600000 ![0, 0] x1 slices_S2x1600000_S1x1600000_0_0) shapeCasts_S1x1600000_S1600000⟩, ⟨S100000, iotaInDim S100000 32 0⟩] concatenates_S1600000_S100000_S1700000_d0)
/-- The arcs' target words, the listed arcs then one loop per node (main_v6). -/
def dstRaw (x1 : IVec S2x1600000 32) : IVec S1700000 32 :=
  (concatenate S1700000 0 [⟨S1600000, shapeCast S1600000 (extractStridedSlice S1x1600000 ![1, 0] x1 slices_S2x1600000_S1x1600000_1_0) shapeCasts_S1x1600000_S1600000⟩, ⟨S100000, iotaInDim S100000 32 0⟩] concatenates_S1600000_S100000_S1700000_d0)
/-- Negative words moved up by the number of nodes, then the list as one column (main_v21, main_v22). -/
def wrapCol (s : IVec S1700000 32) : IVec S1700000x1 32 :=
  (broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s))
/-- A list of words as one column (main_v9, main_v26, main_v39). -/
def asCol (d : IVec S1700000 32) : IVec S1700000x1 32 :=
  (broadcastInDim S1700000x1 ![0] bcast_S1700000_S1700000x1_0 d)

/-- The arcs' source words as the program computes them from the arc list x1 (main_v22; main_v35 is the same term). -/
def srcWords (x1 : IVec S2x1600000 32) : IVec S1700000x1 32 :=
  (broadcastInDim S1700000x1 ![0] bcast_S1700000_S1700000x1_0 (select (cmpi .slt (concatenate S1700000 0 [⟨S1600000, shapeCast S1600000 (extractStridedSlice S1x1600000 ![0, 0] x1 slices_S2x1600000_S1x1600000_0_0) shapeCasts_S1x1600000_S1600000⟩, ⟨S100000, iotaInDim S100000 32 0⟩] concatenates_S1600000_S100000_S1700000_d0) (broadcastInDim S1700000 ![] bcast_S_S1700000 (constantI S_ 32 0#32))) (addi (concatenate S1700000 0 [⟨S1600000, shapeCast S1600000 (extractStridedSlice S1x1600000 ![0, 0] x1 slices_S2x1600000_S1x1600000_0_0) shapeCasts_S1x1600000_S1600000⟩, ⟨S100000, iotaInDim S100000 32 0⟩] concatenates_S1600000_S100000_S1700000_d0) (broadcastInDim S1700000 ![] bcast_S_S1700000 (constantI S_ 32 100000#32))) (concatenate S1700000 0 [⟨S1600000, shapeCast S1600000 (extractStridedSlice S1x1600000 ![0, 0] x1 slices_S2x1600000_S1x1600000_0_0) shapeCasts_S1x1600000_S1600000⟩, ⟨S100000, iotaInDim S100000 32 0⟩] concatenates_S1600000_S100000_S1700000_d0)))
/-- The arcs' target words (main_v26; main_v9 and main_v39 are the same term). -/
def dstWords (x1 : IVec S2x1600000 32) : IVec S1700000x1 32 :=
  (broadcastInDim S1700000x1 ![0] bcast_S1700000_S1700000x1_0 (concatenate S1700000 0 [⟨S1600000, shapeCast S1600000 (extractStridedSlice S1x1600000 ![1, 0] x1 slices_S2x1600000_S1x1600000_1_0) shapeCasts_S1x1600000_S1600000⟩, ⟨S100000, iotaInDim S100000 32 0⟩] concatenates_S1600000_S100000_S1700000_d0))
/-- The per-node factor as a one-column matrix (main_v15): the inverse square root of the number of arcs arriving at
    the node where that number is positive, zero elsewhere. -/
def factor (x1 : IVec S2x1600000 32) : S100000x1.Idx → EReal :=
  shapeCast S100000x1 (select (cmpf (F := Ideal) .ogt (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 (concatenate S1700000 0 [⟨S1600000, shapeCast S1600000 (extractStridedSlice S1x1600000 ![1, 0] x1 slices_S2x1600000_S1x1600000_1_0) shapeCasts_S1x1600000_S1600000⟩, ⟨S100000, iotaInDim S100000 32 0⟩] concatenates_S1600000_S100000_S1700000_d0)) (broadcastInDim S1700000 ![] bcast_S_S1700000 (constant (F := Ideal) S_ .f32 0x3F800000#32))) (broadcastInDim S100000 ![] bcast_S_S100000 (constant (F := Ideal) S_ .f32 0x00000000#32))) (Host.rsqrt (F := Ideal) (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 (concatenate S1700000 0 [⟨S1600000, shapeCast S1600000 (extractStridedSlice S1x1600000 ![1, 0] x1 slices_S2x1600000_S1x1600000_1_0) shapeCasts_S1x1600000_S1600000⟩, ⟨S100000, iotaInDim S100000 32 0⟩] concatenates_S1600000_S100000_S1700000_d0)) (broadcastInDim S1700000 ![] bcast_S_S1700000 (constant (F := Ideal) S_ .f32 0x3F800000#32)))) (broadcastInDim S100000 ![] bcast_S_S100000 (id (constant (F := Ideal) S_ .f32 0x00000000#32)))) shapeCasts_S100000_S100000x1

theorem srcWords_eq (x1 : IVec S2x1600000 32) : srcWords x1 = wrapCol (srcRaw x1) := rfl
theorem dstWords_eq (x1 : IVec S2x1600000 32) : dstWords x1 = asCol (dstRaw x1) := rfl

/-! ## One round's sum over the arcs, as the program spells it -/

/-- The program's gather of the rows at the source words, its change of float format (the identity on extended reals) and its
    accumulating scatter into zeros at the target words are the sum over the arcs arriving at each node. -/
theorem agg_eq (hs : S100000x64.Idx → EReal) (sI dI : IVec S1700000x1 32) :
    (Host.scatterAdd (F := Ideal) scatter_S100000x64_S1700000x1_S1700000x64_1_0_0_1
        (broadcastInDim S100000x64 ![] bcast_S_S100000x64 (constant (F := Ideal) S_ .f32 0x00000000#32)) dI
        (extf (F := Ideal) .f32 (Host.gather gather_S100000x64_S1700000x1_S1700000x64_1_0_n_n_0_1_164 hs sI : FVec Ideal S1700000x64 .bf16) bitsLt_bf16_f32)
      : S100000x64.Idx → EReal) = aggNodes hs sI dI := by
  have hz : ((broadcastInDim S100000x64 ![] bcast_S_S100000x64 (constant (F := Ideal) S_ .f32 0x00000000#32)) : S100000x64.Idx → EReal) = fun _ => z0 := by
    funext i; rw [broadcastInDim_scalar_apply, constant_apply]
  have hg : gather_S100000x64_S1700000x1_S1700000x64_1_0_n_n_0_1_164 = rowsGather := rfl
  have hsd : scatter_S100000x64_S1700000x1_S1700000x64_1_0_0_1 = rowsScatter := rfl
  have hu : (extf (F := Ideal) .f32 (Host.gather gather_S100000x64_S1700000x1_S1700000x64_1_0_n_n_0_1_164 hs sI : FVec Ideal S1700000x64 .bf16) bitsLt_bf16_f32
      : S1700000x64.Idx → EReal) = Host.gather rowsGather hs sI := by
    funext j; rw [extf_apply, hg]
  unfold aggNodes Host.scatterAdd
  rw [Ideal.hostScatterAdd_def, hz, hu, hsd]

/-! ## The contents at region 0's entry -/

set_option maxHeartbeats 1000000 in
theorem W3_v5 (c : Dev nD) : (W3 m ρ c (Proc.devRef .tc main_v5) : IVec S1700000 32) = srcRaw (m ((c.tc : Thread nD τ).loc main_arg1)) := by
  show StableHlo.after hostOps0_2 (StableHlo.after hostOps0_1 (StableHlo.after hostOps0 (W0 m ρ c))) (Proc.devRef .tc main_v5) = _
  after_all
  rfl
set_option maxHeartbeats 1000000 in
theorem W3_v6 (c : Dev nD) : (W3 m ρ c (Proc.devRef .tc main_v6) : IVec S1700000 32) = dstRaw (m ((c.tc : Thread nD τ).loc main_arg1)) := by
  show StableHlo.after hostOps0_2 (StableHlo.after hostOps0_1 (StableHlo.after hostOps0 (W0 m ρ c))) (Proc.devRef .tc main_v6) = _
  after_all
  rfl
theorem W3_arg0 (c : Dev nD) : W3 m ρ c (Proc.devRef .tc main_arg0) = m ((c.tc : Thread nD τ).loc main_arg0) :=
  calc W3 m ρ c (Proc.devRef .tc main_arg0)
    _ = W2 m ρ c (Proc.devRef .tc main_arg0) := by host_keeps hostOps0_2 main_arg0
    _ = W1 m ρ c (Proc.devRef .tc main_arg0) := by host_keeps hostOps0_1 main_arg0
    _ = W0 m ρ c (Proc.devRef .tc main_arg0) := by host_keeps hostOps0 main_arg0
    _ = m ((c.tc : Thread nD τ).loc main_arg0) := rfl
theorem W3_arg2 (c : Dev nD) : W3 m ρ c (Proc.devRef .tc main_arg2) = m ((c.tc : Thread nD τ).loc main_arg2) :=
  calc W3 m ρ c (Proc.devRef .tc main_arg2)
    _ = W2 m ρ c (Proc.devRef .tc main_arg2) := by host_keeps hostOps0_2 main_arg2
    _ = W1 m ρ c (Proc.devRef .tc main_arg2) := by host_keeps hostOps0_1 main_arg2
    _ = W0 m ρ c (Proc.devRef .tc main_arg2) := by host_keeps hostOps0 main_arg2
    _ = m ((c.tc : Thread nD τ).loc main_arg2) := rfl
theorem W3_arg3 (c : Dev nD) : W3 m ρ c (Proc.devRef .tc main_arg3) = m ((c.tc : Thread nD τ).loc main_arg3) :=
  calc W3 m ρ c (Proc.devRef .tc main_arg3)
    _ = W2 m ρ c (Proc.devRef .tc main_arg3) := by host_keeps hostOps0_2 main_arg3
    _ = W1 m ρ c (Proc.devRef .tc main_arg3) := by host_keeps hostOps0_1 main_arg3
    _ = W0 m ρ c (Proc.devRef .tc main_arg3) := by host_keeps hostOps0 main_arg3
    _ = m ((c.tc : Thread nD τ).loc main_arg3) := rfl
theorem W3_arg4 (c : Dev nD) : W3 m ρ c (Proc.devRef .tc main_arg4) = m ((c.tc : Thread nD τ).loc main_arg4) :=
  calc W3 m ρ c (Proc.devRef .tc main_arg4)
    _ = W2 m ρ c (Proc.devRef .tc main_arg4) := by host_keeps hostOps0_2 main_arg4
    _ = W1 m ρ c (Proc.devRef .tc main_arg4) := by host_keeps hostOps0_1 main_arg4
    _ = W0 m ρ c (Proc.devRef .tc main_arg4) := by host_keeps hostOps0 main_arg4
    _ = m ((c.tc : Thread nD τ).loc main_arg4) := rfl
theorem W3_arg5 (c : Dev nD) : W3 m ρ c (Proc.devRef .tc main_arg5) = m ((c.tc : Thread nD τ).loc main_arg5) :=
  calc W3 m ρ c (Proc.devRef .tc main_arg5)
    _ = W2 m ρ c (Proc.devRef .tc main_arg5) := by host_keeps hostOps0_2 main_arg5
    _ = W1 m ρ c (Proc.devRef .tc main_arg5) := by host_keeps hostOps0_1 main_arg5
    _ = W0 m ρ c (Proc.devRef .tc main_arg5) := by host_keeps hostOps0 main_arg5
    _ = m ((c.tc : Thread nD τ).loc main_arg5) := rfl
theorem W3_arg6 (c : Dev nD) : W3 m ρ c (Proc.devRef .tc main_arg6) = m ((c.tc : Thread nD τ).loc main_arg6) :=
  calc W3 m ρ c (Proc.devRef .tc main_arg6)
    _ = W2 m ρ c (Proc.devRef .tc main_arg6) := by host_keeps hostOps0_2 main_arg6
    _ = W1 m ρ c (Proc.devRef .tc main_arg6) := by host_keeps hostOps0_1 main_arg6
    _ = W0 m ρ c (Proc.devRef .tc main_arg6) := by host_keeps hostOps0 main_arg6
    _ = m ((c.tc : Thread nD τ).loc main_arg6) := rfl
theorem W3_arg7 (c : Dev nD) : W3 m ρ c (Proc.devRef .tc main_arg7) = m ((c.tc : Thread nD τ).loc main_arg7) :=
  calc W3 m ρ c (Proc.devRef .tc main_arg7)
    _ = W2 m ρ c (Proc.devRef .tc main_arg7) := by host_keeps hostOps0_2 main_arg7
    _ = W1 m ρ c (Proc.devRef .tc main_arg7) := by host_keeps hostOps0_1 main_arg7
    _ = W0 m ρ c (Proc.devRef .tc main_arg7) := by host_keeps hostOps0 main_arg7
    _ = m ((c.tc : Thread nD τ).loc main_arg7) := rfl

end Cert.KernelIdeal.RunValue
end
-- ==== Proof.KernelRunC.lean ====
import proofs.«152167_j14405320311543_2_alg».proof.Proof.Gen.KernelIdeal.Frame
import proofs.«152167_j14405320311543_2_alg».proof.Proof.Spec
import proofs.«152167_j14405320311543_2_alg».proof.Proof.LibFold
import proofs.«152167_j14405320311543_2_alg».proof.Proof.KernelRunB
import Idealize.ShloMosaic.Lib.Pipeline.Value
import Idealize.ShloMosaic.Lib.StableHlo.Run
import Idealize.ShloMosaic.Lib.ValueIdx
import Idealize.ShloMosaic.Lib.IdealHost

set_option maxRecDepth 16384

noncomputable section

namespace Cert.KernelIdeal.RunValue

open Idealize.ShloMosaic Idealize.ShloMosaic.TcCoe Idealize.ShloMosaic.Tactic Idealize.ShloMosaic.ValueIdx
open Idealize.ShloMosaic.StableHlo
open Idealize.SL.Sem
open Idealize.ShloMosaic.Pipeline (Dat Cfg Window BodyObligation cellOf)
open Cert.KernelIdeal Cert.KernelIdeal.Gen Cert.Gcn Cert.LibFold

variable (m : (ℓ : Loc nD τ sig) → Buf (Elt Ideal) ℓ) (ρ : Dev nD → PrngReg)

/-! ## The per-node factor at region 0's entry -/

set_option maxHeartbeats 1000000 in
/-- The select of the module-local function and the reshape after it, over any contents before them. -/
theorem where_v15 (V1 : Valuation τ sig (Elt Ideal)) :
    (StableHlo.after hostOps0_2 (StableHlo.after hostOps0_1 V1) (Proc.devRef .tc main_v15) : S100000x1.Idx → EReal)
      = shapeCast S100000x1 (select (V1 (Proc.devRef .tc main_v12) : IVec S100000 1) (V1 (Proc.devRef .tc main_v13) : FVec Ideal S100000 .f32)
          (broadcastInDim S100000 ![] bcast_S_S100000 (id (V1 (Proc.devRef .tc main_cst_2) : FVec Ideal S_ .f32)))) shapeCasts_S100000_S100000x1 := by
  after_all
  rfl

set_option maxHeartbeats 1000000 in
theorem W1_v12 (c : Dev nD) : (W1 m ρ c (Proc.devRef .tc main_v12) : IVec S100000 1)
    = cmpf (F := Ideal) .ogt (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 (concatenate S1700000 0 [⟨S1600000, shapeCast S1600000 (extractStridedSlice S1x1600000 ![1, 0] (m ((c.tc : Thread nD τ).loc main_arg1)) slices_S2x1600000_S1x1600000_1_0) shapeCasts_S1x1600000_S1600000⟩, ⟨S100000, iotaInDim S100000 32 0⟩] concatenates_S1600000_S100000_S1700000_d0)) (broadcastInDim S1700000 ![] bcast_S_S1700000 (constant (F := Ideal) S_ .f32 0x3F800000#32))) (broadcastInDim S100000 ![] bcast_S_S100000 (constant (F := Ideal) S_ .f32 0x00000000#32)) := by
  show StableHlo.after hostOps0 (W0 m ρ c) (Proc.devRef .tc main_v12) = _
  after_all
  rfl
set_option maxHeartbeats 1000000 in
theorem W1_v13 (c : Dev nD) : (W1 m ρ c (Proc.devRef .tc main_v13) : FVec Ideal S100000 .f32)
    = Host.rsqrt (F := Ideal) (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 (concatenate S1700000 0 [⟨S1600000, shapeCast S1600000 (extractStridedSlice S1x1600000 ![1, 0] (m ((c.tc : Thread nD τ).loc main_arg1)) slices_S2x1600000_S1x1600000_1_0) shapeCasts_S1x1600000_S1600000⟩, ⟨S100000, iotaInDim S100000 32 0⟩] concatenates_S1600000_S100000_S1700000_d0)) (broadcastInDim S1700000 ![] bcast_S_S1700000 (constant (F := Ideal) S_ .f32 0x3F800000#32))) := by
  show StableHlo.after hostOps0 (W0 m ρ c) (Proc.devRef .tc main_v13) = _
  after_all
  rfl
set_option maxHeartbeats 1000000 in
theorem W1_cst_2 (c : Dev nD) : (W1 m ρ c (Proc.devRef .tc main_cst_2) : FVec Ideal S_ .f32)
    = constant (F := Ideal) S_ .f32 0x00000000#32 := by
  show StableHlo.after hostOps0 (W0 m ρ c) (Proc.devRef .tc main_cst_2) = _
  after_all

set_option maxHeartbeats 1000000 in
theorem W3_v15 (c : Dev nD) : (W3 m ρ c (Proc.devRef .tc main_v15) : S100000x1.Idx → EReal) = factor (m ((c.tc : Thread nD τ).loc main_arg1)) := by
  refine (where_v15 (W1 m ρ c)).trans ?_
  rw [W1_v12 m ρ c, W1_v13 m ρ c, W1_cst_2 m ρ c]
  rfl

/-! ## The contents at region 0's exit: its arrays, and what it leaves alone -/

theorem W4_v16 (c : Dev nD) : W4 m ρ c (Proc.devRef .tc main_v16) = (dat0 (V3 m ρ) c).arrAt 3 cfg0.N := W4_arr m ρ c 3
theorem W4_v5 (c : Dev nD) : (W4 m ρ c (Proc.devRef .tc main_v5) : IVec S1700000 32) = srcRaw (m ((c.tc : Thread nD τ).loc main_arg1)) :=
  (W4_of_ne m ρ c main_v5 (by decide)).trans (W3_v5 m ρ c)
theorem W4_v6 (c : Dev nD) : (W4 m ρ c (Proc.devRef .tc main_v6) : IVec S1700000 32) = dstRaw (m ((c.tc : Thread nD τ).loc main_arg1)) :=
  (W4_of_ne m ρ c main_v6 (by decide)).trans (W3_v6 m ρ c)
theorem W4_v15 (c : Dev nD) : (W4 m ρ c (Proc.devRef .tc main_v15) : S100000x1.Idx → EReal) = factor (m ((c.tc : Thread nD τ).loc main_arg1)) :=
  ((W4_arr m ρ c 2).trans (((dat0 (V3 m ρ) c).arrAt_in 2 rfl _).trans (A_eq0 (V3 m ρ) c 2))).trans (W3_v15 m ρ c)
theorem W4_arg3 (c : Dev nD) : W4 m ρ c (Proc.devRef .tc main_arg3) = m ((c.tc : Thread nD τ).loc main_arg3) :=
  (W4_of_ne m ρ c main_arg3 (by decide)).trans (W3_arg3 m ρ c)
theorem W4_arg4 (c : Dev nD) : W4 m ρ c (Proc.devRef .tc main_arg4) = m ((c.tc : Thread nD τ).loc main_arg4) :=
  (W4_of_ne m ρ c main_arg4 (by decide)).trans (W3_arg4 m ρ c)
theorem W4_arg5 (c : Dev nD) : W4 m ρ c (Proc.devRef .tc main_arg5) = m ((c.tc : Thread nD τ).loc main_arg5) :=
  (W4_of_ne m ρ c main_arg5 (by decide)).trans (W3_arg5 m ρ c)
theorem W4_arg6 (c : Dev nD) : W4 m ρ c (Proc.devRef .tc main_arg6) = m ((c.tc : Thread nD τ).loc main_arg6) :=
  (W4_of_ne m ρ c main_arg6 (by decide)).trans (W3_arg6 m ρ c)
theorem W4_arg7 (c : Dev nD) : W4 m ρ c (Proc.devRef .tc main_arg7) = m ((c.tc : Thread nD τ).loc main_arg7) :=
  (W4_of_ne m ρ c main_arg7 (by decide)).trans (W3_arg7 m ρ c)

/-! ## The contents at region 1's entry -/

set_option maxHeartbeats 1000000 in
/-- The first round's sum, over any contents before the line. -/
theorem host1_v27 (V : Valuation τ sig (Elt Ideal)) :
    (StableHlo.after hostOps1 V (Proc.devRef .tc main_v27) : S100000x64.Idx → EReal)
      = aggNodes (V (Proc.devRef .tc main_v16) : S100000x64.Idx → EReal) (wrapCol (V (Proc.devRef .tc main_v5))) (asCol (V (Proc.devRef .tc main_v6))) := by
  refine Eq.trans ?_ (agg_eq _ _ _)
  after_all
  rfl
set_option maxHeartbeats 1000000 in
theorem host1_v28 (V : Valuation τ sig (Elt Ideal)) :
    (StableHlo.after hostOps1 V (Proc.devRef .tc main_v28) : S1x64.Idx → EReal) = shapeCast S1x64 (V (Proc.devRef .tc main_arg3)) shapeCasts_S64_S1x64 := by
  after_all
  rfl

theorem W5_v27 (c : Dev nD) : (W5 m ρ c (Proc.devRef .tc main_v27) : S100000x64.Idx → EReal)
    = aggNodes ((dat0 (V3 m ρ) c).arrAt 3 cfg0.N : S100000x64.Idx → EReal) (srcWords (m ((c.tc : Thread nD τ).loc main_arg1))) (dstWords (m ((c.tc : Thread nD τ).loc main_arg1))) := by
  refine (host1_v27 (W4 m ρ c)).trans ?_
  rw [W4_v5 m ρ c, W4_v6 m ρ c, W4_v16 m ρ c, srcWords_eq, dstWords_eq]
theorem W5_v28 (c : Dev nD) : (W5 m ρ c (Proc.devRef .tc main_v28) : S1x64.Idx → EReal) = shapeCast S1x64 (m ((c.tc : Thread nD τ).loc main_arg3)) shapeCasts_S64_S1x64 := by
  refine (host1_v28 (W4 m ρ c)).trans ?_
  rw [W4_arg3 m ρ c]
theorem W5_v5 (c : Dev nD) : (W5 m ρ c (Proc.devRef .tc main_v5) : IVec S1700000 32) = srcRaw (m ((c.tc : Thread nD τ).loc main_arg1)) :=
  Eq.trans (by host_keeps hostOps1 main_v5) (W4_v5 m ρ c)
theorem W5_v6 (c : Dev nD) : (W5 m ρ c (Proc.devRef .tc main_v6) : IVec S1700000 32) = dstRaw (m ((c.tc : Thread nD τ).loc main_arg1)) :=
  Eq.trans (by host_keeps hostOps1 main_v6) (W4_v6 m ρ c)
theorem W5_v15 (c : Dev nD) : (W5 m ρ c (Proc.devRef .tc main_v15) : S100000x1.Idx → EReal) = factor (m ((c.tc : Thread nD τ).loc main_arg1)) :=
  Eq.trans (by host_keeps hostOps1 main_v15) (W4_v15 m ρ c)
theorem W5_arg4 (c : Dev nD) : W5 m ρ c (Proc.devRef .tc main_arg4) = m ((c.tc : Thread nD τ).loc main_arg4) :=
  Eq.trans (by host_keeps hostOps1 main_arg4) (W4_arg4 m ρ c)
theorem W5_arg5 (c : Dev nD) : W5 m ρ c (Proc.devRef .tc main_arg5) = m ((c.tc : Thread nD τ).loc main_arg5) :=
  Eq.trans (by host_keeps hostOps1 main_arg5) (W4_arg5 m ρ c)
theorem W5_arg6 (c : Dev nD) : W5 m ρ c (Proc.devRef .tc main_arg6) = m ((c.tc : Thread nD τ).loc main_arg6) :=
  Eq.trans (by host_keeps hostOps1 main_arg6) (W4_arg6 m ρ c)
theorem W5_arg7 (c : Dev nD) : W5 m ρ c (Proc.devRef .tc main_arg7) = m ((c.tc : Thread nD τ).loc main_arg7) :=
  Eq.trans (by host_keeps hostOps1 main_arg7) (W4_arg7 m ρ c)

/-! ## The contents at region 1's exit -/

theorem W6_v29 (c : Dev nD) : W6 m ρ c (Proc.devRef .tc main_v29) = (dat1 (V5 m ρ) c).arrAt 4 cfg1.N := W6_arr m ρ c 4
theorem W6_v5 (c : Dev nD) : (W6 m ρ c (Proc.devRef .tc main_v5) : IVec S1700000 32) = srcRaw (m ((c.tc : Thread nD τ).loc main_arg1)) :=
  (W6_of_ne m ρ c main_v5 (by decide)).trans (W5_v5 m ρ c)
theorem W6_v6 (c : Dev nD) : (W6 m ρ c (Proc.devRef .tc main_v6) : IVec S1700000 32) = dstRaw (m ((c.tc : Thread nD τ).loc main_arg1)) :=
  (W6_of_ne m ρ c main_v6 (by decide)).trans (W5_v6 m ρ c)
theorem W6_v15 (c : Dev nD) : (W6 m ρ c (Proc.devRef .tc main_v15) : S100000x1.Idx → EReal) = factor (m ((c.tc : Thread nD τ).loc main_arg1)) :=
  ((W6_arr m ρ c 1).trans (((dat1 (V5 m ρ) c).arrAt_in 1 rfl _).trans (A_eq1 (V5 m ρ) c 1))).trans (W5_v15 m ρ c)
theorem W6_arg5 (c : Dev nD) : W6 m ρ c (Proc.devRef .tc main_arg5) = m ((c.tc : Thread nD τ).loc main_arg5) :=
  (W6_of_ne m ρ c main_arg5 (by decide)).trans (W5_arg5 m ρ c)
theorem W6_arg6 (c : Dev nD) : W6 m ρ c (Proc.devRef .tc main_arg6) = m ((c.tc : Thread nD τ).loc main_arg6) :=
  (W6_of_ne m ρ c main_arg6 (by decide)).trans (W5_arg6 m ρ c)
theorem W6_arg7 (c : Dev nD) : W6 m ρ c (Proc.devRef .tc main_arg7) = m ((c.tc : Thread nD τ).loc main_arg7) :=
  (W6_of_ne m ρ c main_arg7 (by decide)).trans (W5_arg7 m ρ c)

/-! ## The contents at region 2's entry -/

set_option maxHeartbeats 1000000 in
/-- The second round's sum, over any contents before the line. -/
theorem host2_v40 (V : Valuation τ sig (Elt Ideal)) :
    (StableHlo.after hostOps2 V (Proc.devRef .tc main_v40) : S100000x64.Idx → EReal)
      = aggNodes (V (Proc.devRef .tc main_v29) : S100000x64.Idx → EReal) (wrapCol (V (Proc.devRef .tc main_v5))) (asCol (V (Proc.devRef .tc main_v6))) := by
  refine Eq.trans ?_ (agg_eq _ _ _)
  after_all
  rfl
set_option maxHeartbeats 1000000 in
theorem host2_v41 (V : Valuation τ sig (Elt Ideal)) :
    (StableHlo.after hostOps2 V (Proc.devRef .tc main_v41) : S1x64.Idx → EReal) = shapeCast S1x64 (V (Proc.devRef .tc main_arg5)) shapeCasts_S64_S1x64 := by
  after_all
  rfl
set_option maxHeartbeats 1000000 in
theorem host2_v42 (V : Valuation τ sig (Elt Ideal)) :
    (StableHlo.after hostOps2 V (Proc.devRef .tc main_v42) : S1x40.Idx → EReal) = shapeCast S1x40 (V (Proc.devRef .tc main_arg7)) shapeCasts_S40_S1x40 := by
  after_all
  rfl

theorem W7_v40 (c : Dev nD) : (W7 m ρ c (Proc.devRef .tc main_v40) : S100000x64.Idx → EReal)
    = aggNodes ((dat1 (V5 m ρ) c).arrAt 4 cfg1.N : S100000x64.Idx → EReal) (srcWords (m ((c.tc : Thread nD τ).loc main_arg1))) (dstWords (m ((c.tc : Thread nD τ).loc main_arg1))) := by
  refine (host2_v40 (W6 m ρ c)).trans ?_
  rw [W6_v5 m ρ c, W6_v6 m ρ c, W6_v29 m ρ c, srcWords_eq, dstWords_eq]
theorem W7_v41 (c : Dev nD) : (W7 m ρ c (Proc.devRef .tc main_v41) : S1x64.Idx → EReal) = shapeCast S1x64 (m ((c.tc : Thread nD τ).loc main_arg5)) shapeCasts_S64_S1x64 := by
  refine (host2_v41 (W6 m ρ c)).trans ?_
  rw [W6_arg5 m ρ c]
theorem W7_v42 (c : Dev nD) : (W7 m ρ c (Proc.devRef .tc main_v42) : S1x40.Idx → EReal) = shapeCast S1x40 (m ((c.tc : Thread nD τ).loc main_arg7)) shapeCasts_S40_S1x40 := by
  refine (host2_v42 (W6 m ρ c)).trans ?_
  rw [W6_arg7 m ρ c]
theorem W7_v15 (c : Dev nD) : (W7 m ρ c (Proc.devRef .tc main_v15) : S100000x1.Idx → EReal) = factor (m ((c.tc : Thread nD τ).loc main_arg1)) :=
  Eq.trans (by host_keeps hostOps2 main_v15) (W6_v15 m ρ c)
theorem W7_arg6 (c : Dev nD) : W7 m ρ c (Proc.devRef .tc main_arg6) = m ((c.tc : Thread nD τ).loc main_arg6) :=
  Eq.trans (by host_keeps hostOps2 main_arg6) (W6_arg6 m ρ c)

end Cert.KernelIdeal.RunValue
end
-- ==== Proof.KernelRun.lean ====
import proofs.«152167_j14405320311543_2_alg».proof.Proof.Gen.KernelIdeal.Frame
import proofs.«152167_j14405320311543_2_alg».proof.Proof.Spec
import proofs.«152167_j14405320311543_2_alg».proof.Proof.LibFold
import proofs.«152167_j14405320311543_2_alg».proof.Proof.Region0
import proofs.«152167_j14405320311543_2_alg».proof.Proof.Region1
import proofs.«152167_j14405320311543_2_alg».proof.Proof.Region2
import proofs.«152167_j14405320311543_2_alg».proof.Proof.KernelRunA
import proofs.«152167_j14405320311543_2_alg».proof.Proof.KernelRunB
import proofs.«152167_j14405320311543_2_alg».proof.Proof.KernelRunC
import Idealize.ShloMosaic.Lib.Pipeline.Value
import Idealize.ShloMosaic.Lib.StableHlo.Run
import Idealize.ShloMosaic.Lib.ValueIdx

set_option maxRecDepth 16384

noncomputable section

namespace Cert.KernelIdeal.RunValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Gcn Cert.KernelIdeal.Stages

variable (m : (ℓ : Loc nD τ sig) → Buf (Elt Ideal) ℓ) (ρ : Dev nD → PrngReg)

/-! ## The three stages' values, each from the one before -/

/-- Region 0 leaves the first stage of the launched arrays. -/
theorem out0 (c : Dev nD) : ((dat0 (V3 m ρ) c).arrAt 3 cfg0.N : S100000x64.Idx → EReal)
    = stage0 (m ((c.tc : Thread nD τ).loc main_arg0)) (m ((c.tc : Thread nD τ).loc main_arg2)) (factor (m ((c.tc : Thread nD τ).loc main_arg1))) := by
  refine (final0 (V3 m ρ) c).trans ?_
  rw [show V3 m ρ c main_arg0 = _ from W3_arg0 m ρ c, show V3 m ρ c main_arg2 = _ from W3_arg2 m ρ c,
    show (V3 m ρ c main_v15 : S100000x1.Idx → EReal) = _ from W3_v15 m ρ c]

/-- Region 1 leaves the middle stage of the first round's sum. -/
theorem out1 (c : Dev nD) : ((dat1 (V5 m ρ) c).arrAt 4 cfg1.N : S100000x64.Idx → EReal)
    = stage1 (aggNodes (stage0 (m ((c.tc : Thread nD τ).loc main_arg0)) (m ((c.tc : Thread nD τ).loc main_arg2)) (factor (m ((c.tc : Thread nD τ).loc main_arg1)))) (srcWords (m ((c.tc : Thread nD τ).loc main_arg1))) (dstWords (m ((c.tc : Thread nD τ).loc main_arg1))))
        (factor (m ((c.tc : Thread nD τ).loc main_arg1))) (shapeCast S1x64 (m ((c.tc : Thread nD τ).loc main_arg3)) shapeCasts_S64_S1x64) (m ((c.tc : Thread nD τ).loc main_arg4)) := by
  refine (final1 (V5 m ρ) c).trans ?_
  rw [show (V5 m ρ c main_v27 : S100000x64.Idx → EReal) = _ from W5_v27 m ρ c, out0 m ρ c,
    show (V5 m ρ c main_v15 : S100000x1.Idx → EReal) = _ from W5_v15 m ρ c,
    show (V5 m ρ c main_v28 : S1x64.Idx → EReal) = _ from W5_v28 m ρ c, show V5 m ρ c main_arg4 = _ from W5_arg4 m ρ c]

/-- Region 2 leaves the last stage of the second round's sum: the whole function of the launched arrays. -/
theorem out2 (c : Dev nD) : ((dat2 (V7 m ρ) c).arrAt 5 cfg2.N : S100000x40.Idx → EReal)
    = nodesForm (m ((c.tc : Thread nD τ).loc main_arg0)) (srcWords (m ((c.tc : Thread nD τ).loc main_arg1))) (dstWords (m ((c.tc : Thread nD τ).loc main_arg1))) (factor (m ((c.tc : Thread nD τ).loc main_arg1))) (m ((c.tc : Thread nD τ).loc main_arg2))
        (shapeCast S1x64 (m ((c.tc : Thread nD τ).loc main_arg3)) shapeCasts_S64_S1x64) (m ((c.tc : Thread nD τ).loc main_arg4))
        (shapeCast S1x64 (m ((c.tc : Thread nD τ).loc main_arg5)) shapeCasts_S64_S1x64) (m ((c.tc : Thread nD τ).loc main_arg6))
        (shapeCast S1x40 (m ((c.tc : Thread nD τ).loc main_arg7)) shapeCasts_S40_S1x40) := by
  refine (final2 (V7 m ρ) c).trans ?_
  rw [show (V7 m ρ c main_v40 : S100000x64.Idx → EReal) = _ from W7_v40 m ρ c, out1 m ρ c,
    show (V7 m ρ c main_v15 : S100000x1.Idx → EReal) = _ from W7_v15 m ρ c,
    show (V7 m ρ c main_v41 : S1x64.Idx → EReal) = _ from W7_v41 m ρ c, show V7 m ρ c main_arg6 = _ from W7_arg6 m ρ c,
    show (V7 m ρ c main_v42 : S1x40.Idx → EReal) = _ from W7_v42 m ρ c]
  rfl

theorem run_value : θ_run (defs (F := Ideal)) (onTc (τ := τ) (main (F := Ideal))) ⟨m, fun _ => 0, ρ⟩ (fun r => ∀ c : Dev nD,
      r.2.mem ((c.tc : Thread nD τ).loc main_v43)
        = (nodesForm (m ((c.tc : Thread nD τ).loc main_arg0)) (srcWords (m ((c.tc : Thread nD τ).loc main_arg1)))
            (dstWords (m ((c.tc : Thread nD τ).loc main_arg1))) (factor (m ((c.tc : Thread nD τ).loc main_arg1)))
            (m ((c.tc : Thread nD τ).loc main_arg2))
            (shapeCast S1x64 (m ((c.tc : Thread nD τ).loc main_arg3)) shapeCasts_S64_S1x64)
            (m ((c.tc : Thread nD τ).loc main_arg4))
            (shapeCast S1x64 (m ((c.tc : Thread nD τ).loc main_arg5)) shapeCasts_S64_S1x64)
            (m ((c.tc : Thread nD τ).loc main_arg6))
            (shapeCast S1x40 (m ((c.tc : Thread nD τ).loc main_arg7)) shapeCasts_S40_S1x40) : S100000x40.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨((h c).1.trans (W8_arr m ρ c 5)).trans (out2 m ρ c), (h c).2⟩) (run_named m ρ)

end Cert.KernelIdeal.RunValue

end
-- ==== Proof.RefArcsA.lean ====
/-
  The second round of averaging recomputes, on fresh buffers, the same lists of node numbers and the same per-node
  factor as the first round: each is the same chain of operations applied to the same argument. This file records those
  equalities, so that both rounds can be stated over one list of sources, one list of targets and one factor.
-/
import proofs.«152167_j14405320311543_2_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Arcs

open Idealize.ShloMosaic Idealize.ShloMosaic.TcCoe Idealize.ShloMosaic.ValueIdx
open Cert.ReferenceIdeal Cert.ReferenceIdeal.ReadP

variable (x1 : IVec S2x1600000 32)

/-- The sources, with a negative number moved up by the number of nodes: written twice in the first round. -/
theorem v21_eq_v36 : val_main_v21 (F := Ideal) x1 = val_main_v36 (F := Ideal) x1 := by
  simp only [val_main_v21, val_main_v20, val_main_v17, val_main_v16, val_main_c, val_main_v19, val_main_v18, val_main_c_3,
    val_main_v36, val_main_v35, val_main_v32, val_main_v31, val_main_c_6, val_main_v34, val_main_v33, val_main_c_7]

/-- The node numbers 0, 1, … are the same list in both rounds. -/
theorem v49_eq_v5 : val_main_v49 (F := Ideal) = val_main_v5 (F := Ideal) := by
  simp only [val_main_v49, val_main_v5]

/-- The sources followed by the node numbers. -/
theorem v50_eq_v6 : val_main_v50 (F := Ideal) x1 = val_main_v6 (F := Ideal) x1 := by
  unfold val_main_v50 val_main_v6
  rw [v49_eq_v5]

/-- The targets followed by the node numbers. -/
theorem v51_eq_v7 : val_main_v51 (F := Ideal) x1 = val_main_v7 (F := Ideal) x1 := by
  unfold val_main_v51 val_main_v7
  rw [v49_eq_v5]

/-- The raw targets as a one-column list. -/
theorem v86_eq_v42 : val_main_v86 (F := Ideal) x1 = val_main_v42 (F := Ideal) x1 := by
  simp only [val_main_v86, val_main_v42, v51_eq_v7]

/-- The number of arcs arriving at each node. -/
theorem v55_eq_v11 : val_main_v55 (F := Ideal) x1 = val_main_v11 (F := Ideal) x1 := by
  simp only [val_main_v55, val_main_v11, val_main_v53, val_main_v9, val_main_cst_10, val_main_cst_0, val_main_v54, val_main_v10,
    val_main_v52, val_main_v8, val_main_cst_9, val_main_cst, v51_eq_v7]

/-- The per-node factor. -/
theorem v59_eq_v15 : val_main_v59 (F := Ideal) x1 = val_main_v15 (F := Ideal) x1 := by
  simp only [val_main_v59, val_main_v15, val_main_v57, val_main_v13, val_main_v58, val_main_v14, val_main_v56, val_main_v12,
    val_main_cst_11, val_main_cst_1, val_main_call2_v1, val_main_call0_v1, val_main_call2_v0, val_main_call0_v0, val_main_cst_12,
    val_main_cst_2, v55_eq_v11]

/-- The sources of the second round (both of its copies) are the sources of the first. -/
theorem v65_eq_v36 : val_main_v65 (F := Ideal) x1 = val_main_v36 (F := Ideal) x1 := by
  simp only [val_main_v65, val_main_v64, val_main_v61, val_main_v60, val_main_c_13, val_main_v63, val_main_v62, val_main_c_14,
    val_main_v36, val_main_v35, val_main_v32, val_main_v31, val_main_c_6, val_main_v34, val_main_v33, val_main_c_7, v50_eq_v6]

theorem v80_eq_v36 : val_main_v80 (F := Ideal) x1 = val_main_v36 (F := Ideal) x1 := by
  simp only [val_main_v80, val_main_v79, val_main_v76, val_main_v75, val_main_c_17, val_main_v78, val_main_v77, val_main_c_18,
    val_main_v36, val_main_v35, val_main_v32, val_main_v31, val_main_c_6, val_main_v34, val_main_v33, val_main_c_7, v50_eq_v6]

/-- The targets used to fetch the factor, with a negative number moved up by the number of nodes. -/
theorem v72_eq_v28 : val_main_v72 (F := Ideal) x1 = val_main_v28 (F := Ideal) x1 := by
  simp only [val_main_v72, val_main_v71, val_main_v68, val_main_v67, val_main_c_15, val_main_v70, val_main_v69, val_main_c_16,
    val_main_v28, val_main_v27, val_main_v24, val_main_v23, val_main_c_4, val_main_v26, val_main_v25, val_main_c_5, v51_eq_v7]

/-- The product of the two fetched factors, one entry per arc: the same in both rounds. -/
theorem v74_eq_v30 : val_main_v74 (F := Ideal) x1 = val_main_v30 (F := Ideal) x1 := by
  simp only [val_main_v74, val_main_v30, val_main_v66, val_main_v22, val_main_v73, val_main_v29, v59_eq_v15, v65_eq_v36,
    v72_eq_v28, v21_eq_v36]

/-- … and the same spread over the 64 columns. -/
theorem v83_eq_v39 : val_main_v83 (F := Ideal) x1 = val_main_v39 (F := Ideal) x1 := by
  simp only [val_main_v83, val_main_v39, val_main_v82, val_main_v38, v74_eq_v30]

/-- The matrix of zeros the sums start from. -/
theorem v85_eq_v41 : val_main_v85 (F := Ideal) = val_main_v41 (F := Ideal) := by
  simp only [val_main_v85, val_main_v41, val_main_cst_19, val_main_cst_8]

end Cert.ReferenceIdeal.Arcs

end
-- ==== Proof.RefArcsB.lean ====
/-
  One round of averaging, as the program writes it, is the specification's sum over arcs with the weight spent on the arc.

  The program fetches the rows of a matrix h at the sources, multiplies the row of arc e by w e (the product of the two
  factors fetched for the arc, spread over the 64 columns), and adds the scaled rows into a matrix of zeros at the raw
  targets. Entry by entry that is the specification's `aggArcs`: the matrix of zeros reads zero everywhere, and the
  scaled row of arc e at column b is (row of h at the source of e) at b times (factor at the source of e times factor
  at the target of e). The fetches and the accumulation stay whole operations; only the multiplications and the two
  spreads are read at an index.
-/
import proofs.«152167_j14405320311543_2_alg».proof.Proof.RefArcsA
import proofs.«152167_j14405320311543_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Arcs

open Idealize.ShloMosaic Idealize.ShloMosaic.TcCoe Idealize.ShloMosaic.ValueIdx
open Cert.ReferenceIdeal Cert.ReferenceIdeal.ReadP Cert.Gcn

/-- The program's dimension numbers are the specification's. -/
theorem dimsScatterRows : scatter_S100000x64_S1700000x1_S1700000x64_1_0_0_1 = rowsScatter := rfl
theorem dimsGatherRows : gather_S100000x64_S1700000x1_S1700000x64_1_0_n_n_0_1_164 = rowsGather := rfl
theorem dimsGatherEntry : gather_S100000_S1700000x1_S1700000_n_0_n_n_0_1_1 = entryGather := rfl

/-- The weight of arc e as the program computes it: the factor fetched at the source of e times the factor fetched at the
    target of e, at every column of the row. -/
theorem weight_apply (x1 : IVec S2x1600000 32) (j : S1700000x64.Idx) :
    val_main_v39 (F := Ideal) x1 j
      = Host.gather entryGather (val_main_v15 (F := Ideal) x1) (val_main_v36 (F := Ideal) x1) (ix1 (rowOf j))
        * Host.gather entryGather (val_main_v15 (F := Ideal) x1) (val_main_v28 (F := Ideal) x1) (ix1 (rowOf j)) := by
  have e : idx_main_v38 (idx_main_v39 j) = ix1 (rowOf j) := funext fun a => Fin.ext (by match a with | ⟨0, _⟩ => rfl)
  rw [val_main_v39_apply, val_main_v38_apply, val_main_v30_apply, e, Ideal.mulf_def]
  unfold val_main_v22 val_main_v29
  rw [v21_eq_v36, dimsGatherEntry]

/-- A round of the program on any matrix h. -/
theorem round_eq (h : FVec Ideal S100000x64 .f32) (x1 : IVec S2x1600000 32) :
    Host.scatterAdd (F := Ideal) scatter_S100000x64_S1700000x1_S1700000x64_1_0_0_1 (val_main_v41 (F := Ideal)) (val_main_v42 (F := Ideal) x1)
        (mulf (F := Ideal) (Host.gather gather_S100000x64_S1700000x1_S1700000x64_1_0_n_n_0_1_164 h (val_main_v36 (F := Ideal) x1))
          (val_main_v39 (F := Ideal) x1))
      = aggArcs h (val_main_v15 (F := Ideal) x1) (val_main_v36 (F := Ideal) x1) (val_main_v28 (F := Ideal) x1)
          (val_main_v42 (F := Ideal) x1) := by
  have hz : (val_main_v41 (F := Ideal) : S100000x64.Idx → EReal) = fun _ => z0 := by
    funext i
    rw [val_main_v41_apply, val_main_cst_8_apply]
    rfl
  have hu : (mulf (F := Ideal) (Host.gather gather_S100000x64_S1700000x1_S1700000x64_1_0_n_n_0_1_164 h (val_main_v36 (F := Ideal) x1))
        (val_main_v39 (F := Ideal) x1) : S1700000x64.Idx → EReal)
      = fun j => Host.gather rowsGather h (val_main_v36 (F := Ideal) x1) j
          * (Host.gather entryGather (val_main_v15 (F := Ideal) x1) (val_main_v36 (F := Ideal) x1) (ix1 (rowOf j))
            * Host.gather entryGather (val_main_v15 (F := Ideal) x1) (val_main_v28 (F := Ideal) x1) (ix1 (rowOf j))) := by
    funext j
    rw [mulf_apply, weight_apply, dimsGatherRows]
  unfold aggArcs Host.scatterAdd
  rw [Ideal.hostScatterAdd_def, dimsScatterRows, hz, hu]

end Cert.ReferenceIdeal.Arcs

end
-- ==== Proof.RefArcsC.lean ====
/-
  The dense operations of the program — the three matrix products, the three bias rows, the cut at zero and the row
  softmax — as the specification's functions of whole matrices, each stated over the program's own value for its operand.

  A product is read entry by entry as the sum over the contracted axis; a bias is a vector spread first into one row and
  then over all rows, so at (p, e) it reads the vector at e; the cut at zero is the maximum with a matrix of zeros. The
  softmax takes a row's largest entry by a fold from minus infinity, takes the maximum of that with minus infinity once
  more (which changes nothing, the fold being at least its starting value), subtracts, exponentiates, sums from zero and
  divides.
-/
import proofs.«152167_j14405320311543_2_alg».proof.Proof.RefArcsB
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Arcs

open Idealize.ShloMosaic Idealize.ShloMosaic.TcCoe Idealize.ShloMosaic.ValueIdx
open Cert.ReferenceIdeal Cert.ReferenceIdeal.Gen Cert.ReferenceIdeal.ReadP Cert.Gcn

variable (x0 : S100000x256.Idx → EReal) (x1 : IVec S2x1600000 32) (x2 : S256x64.Idx → EReal) (x3 : S64.Idx → EReal)
    (x4 : S64x64.Idx → EReal) (x5 : S64.Idx → EReal) (x6 : S64x40.Idx → EReal) (x7 : S40.Idx → EReal)

/-! ## The matrix products -/

theorem v4_eq : val_main_v4 (F := Ideal) x0 x2 = mm x0 x2 := by
  funext i
  obtain ⟨p, e, rfl⟩ : ∃ (p : Fin 100000) (e : Fin 64), i = ix2 p e := ⟨i 0, i 1, eq_ix2 i⟩
  have el : ∀ k : Fin 256, lidx_main_v4 (ix2 p e) k = ix2 p k :=
    fun k => funext fun a => Fin.ext (by match a with | ⟨0, _⟩ => rfl | ⟨1, _⟩ => rfl)
  have er : ∀ k : Fin 256, ridx_main_v4 (ix2 p e) k = ix2 k e :=
    fun k => funext fun a => Fin.ext (by match a with | ⟨0, _⟩ => rfl | ⟨1, _⟩ => rfl)
  rw [val_main_v4_apply, mm_apply]
  simp only [el, er]

theorem v48_eq : val_main_v48 (F := Ideal) x0 x1 x2 x3 x4 = mm (val_main_v47 (F := Ideal) x0 x1 x2 x3) x4 := by
  funext i
  obtain ⟨p, e, rfl⟩ : ∃ (p : Fin 100000) (e : Fin 64), i = ix2 p e := ⟨i 0, i 1, eq_ix2 i⟩
  have el : ∀ k : Fin 64, lidx_main_v48 (ix2 p e) k = ix2 p k :=
    fun k => funext fun a => Fin.ext (by match a with | ⟨0, _⟩ => rfl | ⟨1, _⟩ => rfl)
  have er : ∀ k : Fin 64, ridx_main_v48 (ix2 p e) k = ix2 k e :=
    fun k => funext fun a => Fin.ext (by match a with | ⟨0, _⟩ => rfl | ⟨1, _⟩ => rfl)
  rw [val_main_v48_apply, mm_apply]
  simp only [el, er]

theorem v91_eq : val_main_v91 (F := Ideal) x0 x1 x2 x3 x4 x5 x6 = mm (val_main_v90 (F := Ideal) x0 x1 x2 x3 x4 x5) x6 := by
  funext i
  obtain ⟨p, e, rfl⟩ : ∃ (p : Fin 100000) (e : Fin 40), i = ix2 p e := ⟨i 0, i 1, eq_ix2 i⟩
  have el : ∀ k : Fin 64, lidx_main_v91 (ix2 p e) k = ix2 p k :=
    fun k => funext fun a => Fin.ext (by match a with | ⟨0, _⟩ => rfl | ⟨1, _⟩ => rfl)
  have er : ∀ k : Fin 64, ridx_main_v91 (ix2 p e) k = ix2 k e :=
    fun k => funext fun a => Fin.ext (by match a with | ⟨0, _⟩ => rfl | ⟨1, _⟩ => rfl)
  rw [val_main_v91_apply, mm_apply]
  simp only [el, er]

/-! ## The bias rows and the cut at zero -/

theorem v46_eq : val_main_v46 (F := Ideal) x0 x1 x2 x3 = addRow (val_main_v43 (F := Ideal) x0 x1 x2) (rowMat x3) := by
  funext i
  obtain ⟨p, e, rfl⟩ : ∃ (p : Fin 100000) (e : Fin 64), i = ix2 p e := ⟨i 0, i 1, eq_ix2 i⟩
  have eb : idx_main_v44 (idx_main_v45 (ix2 p e)) = ix1 e := funext fun a => Fin.ext (by match a with | ⟨0, _⟩ => rfl)
  rw [val_main_v46_apply, val_main_v45_apply, val_main_v44_apply, eb, Ideal.addf_def, addRow_apply, rowMat_apply]

theorem v47_eq : val_main_v47 (F := Ideal) x0 x1 x2 x3 = relu (addRow (val_main_v43 (F := Ideal) x0 x1 x2) (rowMat x3)) := by
  funext i
  rw [val_main_v47_apply, val_main_call1_v0_apply, val_main_call1_cst_apply, Ideal.maximumf_def, v46_eq, relu_apply]
  rfl

theorem v90_eq : val_main_v90 (F := Ideal) x0 x1 x2 x3 x4 x5 = addRow (val_main_v87 (F := Ideal) x0 x1 x2 x3 x4) (rowMat x5) := by
  funext i
  obtain ⟨p, e, rfl⟩ : ∃ (p : Fin 100000) (e : Fin 64), i = ix2 p e := ⟨i 0, i 1, eq_ix2 i⟩
  have eb : idx_main_v88 (idx_main_v89 (ix2 p e)) = ix1 e := funext fun a => Fin.ext (by match a with | ⟨0, _⟩ => rfl)
  rw [val_main_v90_apply, val_main_v89_apply, val_main_v88_apply, eb, Ideal.addf_def, addRow_apply, rowMat_apply]

theorem v94_eq : val_main_v94 (F := Ideal) x0 x1 x2 x3 x4 x5 x6 x7
    = addRow (val_main_v91 (F := Ideal) x0 x1 x2 x3 x4 x5 x6) (rowMat x7) := by
  funext i
  obtain ⟨p, e, rfl⟩ : ∃ (p : Fin 100000) (e : Fin 40), i = ix2 p e := ⟨i 0, i 1, eq_ix2 i⟩
  have eb : idx_main_v92 (idx_main_v93 (ix2 p e)) = ix1 e := funext fun a => Fin.ext (by match a with | ⟨0, _⟩ => rfl)
  rw [val_main_v94_apply, val_main_v93_apply, val_main_v92_apply, eb, Ideal.addf_def, addRow_apply, rowMat_apply]

/-! ## The row softmax -/

/-- Node p's index with column k put back is (p, k). -/
theorem lift_row (h : S100000x40.Reduces [1] S100000) (p : Fin 100000) (k : Fin (S100000x40.size 1)) :
    h.lift (ix1 p) k = ix2 p (⟨k.val, k.isLt⟩ : Fin 40) := by
  funext c; apply Fin.ext
  match c with
  | ⟨0, _⟩ => rfl
  | ⟨1, _⟩ => rfl

/-- The program's fold of a row's entries under the maximum, from minus infinity, is the specification's largest entry. -/
theorem rowMax_eq (L : FVec Ideal S100000x40 .f32) (p : Fin 100000) :
    Host.reduce (FloatOps.maximumf (F := Ideal) (φ := .f32)) L (val_main_cst_20 (F := Ideal)) reducesTo_S100000x40_S100000_d1 h_S_ (ix1 p)
      = rowMax L p := by
  have hR : S100000x40.Reduces [1] S100000 := by decide
  rw [Host.reduce_eq_fold_single FloatOps.maximumf L _ reducesTo_S100000x40_S100000_d1 hR h_S_]
  have hf : (L ∘ hR.lift (ix1 p)) = fun k : Fin 40 => L (ix2 p k) := funext fun k => congrArg L (lift_row hR p k)
  exact congrArg (fun f => Finset.fold max ninf f (Finset.univ : Finset (Fin 40))) hf

theorem v105_eq : val_main_v105 (F := Ideal) x0 x1 x2 x3 x4 x5 x6 x7
    = softmaxRows (val_main_v94 (F := Ideal) x0 x1 x2 x3 x4 x5 x6 x7) := by
  funext i
  obtain ⟨p, e, rfl⟩ : ∃ (p : Fin 100000) (e : Fin 40), i = ix2 p e := ⟨i 0, i 1, eq_ix2 i⟩
  have hm : ∀ q : Fin 40, val_main_v99 (F := Ideal) x0 x1 x2 x3 x4 x5 x6 x7 (ix2 p q)
      = rowMax (val_main_v94 (F := Ideal) x0 x1 x2 x3 x4 x5 x6 x7) p := by
    intro q
    have e1 : idx_main_v98 (idx_main_v99 (ix2 p q)) = ix1 p := funext fun a => Fin.ext (by match a with | ⟨0, _⟩ => rfl)
    rw [val_main_v99_apply, val_main_v98_apply, e1, val_main_v97_apply, val_main_v96_apply, val_main_cst_21_apply,
      Ideal.maximumf_def]
    unfold val_main_v95
    rw [rowMax_eq]
    unfold rowMax
    exact max_eq_right ((Finset.le_fold_max _).mpr (Or.inl le_rfl))
  have hexp : ∀ q : Fin 40, val_main_v101 (F := Ideal) x0 x1 x2 x3 x4 x5 x6 x7 (ix2 p q)
      = Ideal.exp (val_main_v94 (F := Ideal) x0 x1 x2 x3 x4 x5 x6 x7 (ix2 p q)
          - rowMax (val_main_v94 (F := Ideal) x0 x1 x2 x3 x4 x5 x6 x7) p) := by
    intro q
    rw [val_main_v101_apply, Ideal.hostUnary_exp_def, val_main_v100_apply, Ideal.subf_def, hm]
  have hsum : val_main_v104 (F := Ideal) x0 x1 x2 x3 x4 x5 x6 x7 (ix2 p e)
      = ∑ q : Fin 40, Ideal.exp (val_main_v94 (F := Ideal) x0 x1 x2 x3 x4 x5 x6 x7 (ix2 p q)
          - rowMax (val_main_v94 (F := Ideal) x0 x1 x2 x3 x4 x5 x6 x7) p) := by
    have e2 : idx_main_v103 (idx_main_v104 (ix2 p e)) = ix1 p := funext fun a => Fin.ext (by match a with | ⟨0, _⟩ => rfl)
    have e3 : ∀ k : Fin 40, idx_main_v102 (ix1 p) k = ix2 p k :=
      fun k => funext fun a => Fin.ext (by match a with | ⟨0, _⟩ => rfl | ⟨1, _⟩ => rfl)
    rw [val_main_v104_apply, val_main_v103_apply, e2, val_main_v102_apply, val_main_cst_22_apply, Ideal.ofBits_def,
      Ideal.ofBits_zero_f32, zero_add]
    simp only [e3, hexp]
  rw [val_main_v105_apply, Ideal.hostDivf_def, softmaxRows_apply, hexp, hsum]

end Cert.ReferenceIdeal.Arcs

end
-- ==== Proof.RefArcs.lean ====
/-
  The reference program's result is the specification's `arcsForm`: two rounds of averaging with the weight spent on the
  arc, each followed by its bias row (the first also by the cut at zero), then the last product, its bias row and the row
  softmax.

  Each round of the program is the round proved for an arbitrary matrix: the first on the product of the features and the
  first weights, the second on the product of the first round's output and the second weights. The second round works on
  its own copies of the lists of node numbers and of the per-node factor; those copies equal the first round's, so both
  rounds are stated over the same sources, targets and factor. The dense operations in between are the specification's
  functions by the entrywise readings, and the chain composes by rewriting from the result inwards.
-/
import proofs.«152167_j14405320311543_2_alg».proof.Proof.RefRead
import proofs.«152167_j14405320311543_2_alg».proof.Proof.Spec
import proofs.«152167_j14405320311543_2_alg».proof.Proof.RefArcsC
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Arcs

open Idealize.ShloMosaic Idealize.ShloMosaic.TcCoe Idealize.ShloMosaic.ValueIdx
open Cert.ReferenceIdeal Cert.ReferenceIdeal.ReadP Cert.Gcn

/-- The program's dimension numbers are the specification's. -/
theorem rowsScatter_eq : scatter_S100000x64_S1700000x1_S1700000x64_1_0_0_1 = rowsScatter := rfl
theorem rowsGather_eq : gather_S100000x64_S1700000x1_S1700000x64_1_0_n_n_0_1_164 = rowsGather := rfl
theorem entryGather_eq : gather_S100000_S1700000x1_S1700000_n_0_n_n_0_1_1 = entryGather := rfl

/-- The first round: the sums over arcs of the rows of the first product. -/
theorem v43_eq (x0 : S100000x256.Idx → EReal) (x1 : IVec S2x1600000 32) (x2 : S256x64.Idx → EReal) :
    val_main_v43 (F := Ideal) x0 x1 x2
      = aggArcs (val_main_v4 (F := Ideal) x0 x2) (val_main_v15 (F := Ideal) x1) (val_main_v36 (F := Ideal) x1)
          (val_main_v28 (F := Ideal) x1) (val_main_v42 (F := Ideal) x1) := by
  unfold val_main_v43 val_main_v40 val_main_v37
  exact round_eq (val_main_v4 (F := Ideal) x0 x2) x1

/-- The second round: the same sums, of the rows of the second product, over the same arcs with the same weights. -/
theorem v87_eq (x0 : S100000x256.Idx → EReal) (x1 : IVec S2x1600000 32) (x2 : S256x64.Idx → EReal) (x3 : S64.Idx → EReal)
    (x4 : S64x64.Idx → EReal) :
    val_main_v87 (F := Ideal) x0 x1 x2 x3 x4
      = aggArcs (val_main_v48 (F := Ideal) x0 x1 x2 x3 x4) (val_main_v15 (F := Ideal) x1) (val_main_v36 (F := Ideal) x1)
          (val_main_v28 (F := Ideal) x1) (val_main_v42 (F := Ideal) x1) := by
  unfold val_main_v87 val_main_v84 val_main_v81
  rw [v85_eq_v41, v86_eq_v42, v80_eq_v36, v83_eq_v39]
  exact round_eq (val_main_v48 (F := Ideal) x0 x1 x2 x3 x4) x1

theorem ref_eq (x0 : S100000x256.Idx → EReal) (x1 : IVec S2x1600000 32) (x2 : S256x64.Idx → EReal) (x3 : S64.Idx → EReal)
    (x4 : S64x64.Idx → EReal) (x5 : S64.Idx → EReal) (x6 : S64x40.Idx → EReal) (x7 : S40.Idx → EReal) :
    val_main_v105 (F := Ideal) x0 x1 x2 x3 x4 x5 x6 x7
      = arcsForm x0 (val_main_v36 (F := Ideal) x1) (val_main_v28 (F := Ideal) x1) (val_main_v42 (F := Ideal) x1)
          (val_main_v15 (F := Ideal) x1) x2 x3 x4 x5 x6 x7 := by
  unfold arcsForm
  rw [v105_eq, v94_eq, v91_eq, v90_eq, v87_eq, v48_eq, v47_eq, v43_eq, v4_eq]

end Cert.ReferenceIdeal.Arcs

end
-- ==== Proof.Fetch.lean ====
/-
  The gathers and the accumulating scatter of the averaging rounds, read at an index.

  A fetch at a 32-bit word reads the word as a signed number and moves it into the range of the rows, 0 … 99999: a word that names
  a row reads that row, a negative one row 0, a larger one the last row. The fetch of rows of a 64-column matrix and the fetch of
  entries of a vector move a word to the same row. An addend of the accumulating scatter, at (arc a, column e), lands in the row
  its target word names, read signed and NOT moved, in column e; it lands nowhere when the word names no row.
-/
import proofs.«152167_j14405320311543_2_alg».proof.Proof.Spec

noncomputable section

namespace Cert.Gcn

open Idealize.ShloMosaic Idealize.ShloMosaic.ValueIdx

/-- The row a word names for a fetch: the word read signed, moved into 0 … 99999. -/
def fetchRow (w : BitVec 32) : Fin 100000 := ⟨min w.toInt.toNat 99999, by omega⟩

/-- The fetch of rows: entry (a, e) of the result is entry (row named by word a, e) of the matrix. -/
theorem rowsGather_apply (h : Mat 100000 64) (sI : Ids 1700000) (a : Fin 1700000) (e : Fin 64) :
    Host.gather rowsGather h sI (ix2 a e) = h (ix2 (fetchRow (sI (ix2 a 0))) e) := by
  unfold Host.gather
  congr 1
  funext ax
  refine Fin.ext ?_
  have hsi : rowsGather.siIdx (ix2 a e) ⟨List.idxOf (0 : Fin 2) rowsGather.startIndexMap,
      List.idxOf_lt_length_iff.2 (List.mem_singleton.mpr rfl)⟩ = ix2 a 0 := by
    funext b; refine Fin.ext ?_
    match b with
    | ⟨0, _⟩ => rfl
    | ⟨1, _⟩ => rfl
  match ax with
  | ⟨0, _⟩ =>
    show rowsGather.start (ix2 a e) sI 0 + rowsGather.batchCoord (ix2 a e) 0 + rowsGather.offCoord (ix2 a e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowsGather.startIndexMap from List.mem_singleton.mpr rfl), hsi]
    rfl
  | ⟨1, _⟩ =>
    show rowsGather.start (ix2 a e) sI 1 + rowsGather.batchCoord (ix2 a e) 1 + rowsGather.offCoord (ix2 a e) 1 = _
    rw [GatherDims.batchCoord_eq_zero _ _ _ List.not_mem_nil]
    have hs : rowsGather.start (ix2 a e) sI 1 = 0 := by
      unfold GatherDims.start
      rw [dif_neg (by decide)]
    have ho : rowsGather.offCoord (ix2 a e) 1 = e.val := by
      unfold GatherDims.offCoord
      rw [dif_pos (by decide)]
      rfl
    rw [hs, ho]
    simp only [Nat.add_zero, Nat.zero_add]

/-- The fetch of entries: entry a of the result is the vector's entry at the row named by word a. -/
theorem entryGather_apply (dv : Col 100000) (sI : Ids 1700000) (a : Fin 1700000) :
    Host.gather entryGather dv sI (ix1 a) = dv (ix1 (fetchRow (sI (ix2 a 0)))) := by
  unfold Host.gather
  congr 1
  funext ax
  refine Fin.ext ?_
  have hsi : entryGather.siIdx (ix1 a) ⟨List.idxOf (0 : Fin 1) entryGather.startIndexMap,
      List.idxOf_lt_length_iff.2 (List.mem_singleton.mpr rfl)⟩ = ix2 a 0 := by
    funext b; refine Fin.ext ?_
    match b with
    | ⟨0, _⟩ => rfl
    | ⟨1, _⟩ => rfl
  obtain rfl : ax = 0 := Subsingleton.elim _ _
  show entryGather.start (ix1 a) sI 0 + entryGather.batchCoord (ix1 a) 0 + entryGather.offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ entryGather.startIndexMap from List.mem_singleton.mpr rfl), hsi]
  rfl

/-- Where an addend lands: in the row its target word names, read signed, and in its own column. -/
theorem rowsScatter_lands (dI : Ids 1700000) (a : Fin 1700000) (e : Fin 64) (i : (⟨2, ![100000, 64]⟩ : Shape).Idx)
    (h : rowsScatter.resultIdx? (ix2 a e) dI = some i) :
    (dI (ix2 a 0)).toInt = ((i 0).val : Int) ∧ (i 1).val = e.val := by
  have hsi : rowsScatter.siIdx (ix2 a e) ⟨List.idxOf (0 : Fin 2) rowsScatter.scatterDimsToOperandDims,
      List.idxOf_lt_length_iff.2 (List.mem_singleton.mpr rfl)⟩ = ix2 a 0 := by
    funext b; refine Fin.ext ?_
    match b with
    | ⟨0, _⟩ => rfl
    | ⟨1, _⟩ => rfl
  have hs0 : rowsScatter.start (ix2 a e) dI 0 = (dI (ix2 a 0)).toInt := by
    unfold ScatterDims.start
    rw [dif_pos (show (0 : Fin 2) ∈ rowsScatter.scatterDimsToOperandDims from List.mem_singleton.mpr rfl), hsi]
  have hw0 : rowsScatter.window (ix2 a e) 0 = 0 := by
    unfold ScatterDims.window
    rw [dif_neg (by decide)]
  have hs1 : rowsScatter.start (ix2 a e) dI 1 = 0 := by
    unfold ScatterDims.start
    rw [dif_neg (by decide)]
  have hw1 : rowsScatter.window (ix2 a e) 1 = e.val := by
    unfold ScatterDims.window
    rw [dif_pos (by decide)]
    rfl
  unfold ScatterDims.resultIdx? at h
  split at h
  · rename_i hb
    have hi := Option.some.inj h
    subst hi
    have b0 := hb 0
    rw [hs0, hw0] at b0
    constructor
    · show _ = (((rowsScatter.start (ix2 a e) dI 0 + (rowsScatter.window (ix2 a e) 0 : ℕ)).toNat : ℕ) : Int)
      rw [hs0, hw0]
      omega
    · show (rowsScatter.start (ix2 a e) dI 1 + (rowsScatter.window (ix2 a e) 1 : ℕ)).toNat = e.val
      rw [hs1, hw1]
      omega
  · exact absurd h (by simp)

end Cert.Gcn

end
-- ==== Proof.Rounds.lean ====
/-
  One round of averaging, weights on the arcs against weights on the nodes.

  Fix a node p and a column e. Both forms sum over the same arcs, those whose addend lands in row p. For such an arc a, the target
  word names p, so the factor fetched for the target is dv p; and the row fetched for the source is the same in both forms, as is
  the factor fetched for it. So the arcs' form is the sum over those arcs of  h (s a, e) * (dv (s a) * dv p), the nodes' form is
  (the sum over those arcs of  h (s a, e) * dv (s a)) * dv p,  and the two agree because dv p is a real number that is not
  negative: multiplying by it distributes over the sum whatever the addends are.
-/
import proofs.«152167_j14405320311543_2_alg».proof.Proof.Fetch

noncomputable section

namespace Cert.Gcn

open Idealize.ShloMosaic Idealize.ShloMosaic.ValueIdx

/-- Multiplying by a factor that is neither negative nor plus infinity distributes over a finite sum of extended reals. -/
theorem sum_mul_of_nonneg_of_ne_top {ι : Type} (s : Finset ι) (f : ι → EReal) {x : EReal} (h0 : 0 ≤ x) (ht : x ≠ ⊤) :
    (∑ j ∈ s, f j) * x = ∑ j ∈ s, f j * x := by
  classical
  induction s using Finset.induction_on with
  | empty => simp
  | insert a s ha ih =>
    rw [Finset.sum_insert ha, Finset.sum_insert ha, EReal.right_distrib_of_nonneg_of_ne_top h0 ht, ih]

/-- THE LAW OF A ROUND. If every factor is neither negative nor plus infinity, and the factor's fetch at an arc's target word reads
    the row that word names whenever it names one, then spending the weight on the arcs is spending it on the nodes. -/
theorem aggArcs_eq (h : Mat 100000 64) (dv : Col 100000) (sI dIg dI : Ids 1700000)
    (hdv : ∀ v, 0 ≤ dv v ∧ dv v ≠ ⊤)
    (hd : ∀ (a : Fin 1700000) (v : Fin 100000), (dI (ix2 a 0)).toInt = (v.val : Int) → fetchRow (dIg (ix2 a 0)) = v) :
    aggArcs h dv sI dIg dI = scaleRows (aggNodes (scaleRows h (colMat dv)) sI dI) (colMat dv) := by
  funext i
  obtain ⟨p, e, rfl⟩ : ∃ (p : Fin 100000) (e : Fin 64), i = ix2 p e := ⟨i 0, i 1, eq_ix2 i⟩
  rw [scaleRows_apply, colMat_apply]
  unfold aggArcs aggNodes Ideal.hostScatterAdd
  dsimp only
  have hz : z0 = 0 := Ideal.ofBits_zero_f32
  rw [hz, zero_add, zero_add, sum_mul_of_nonneg_of_ne_top _ _ (hdv _).1 (hdv _).2]
  refine Finset.sum_congr rfl fun j hj => ?_
  obtain ⟨a, e', rfl⟩ : ∃ (a : Fin 1700000) (e' : Fin 64), j = ix2 a e' := ⟨j 0, j 1, eq_ix2 j⟩
  obtain ⟨h0, -⟩ := rowsScatter_lands dI a e' (ix2 p e) (Finset.mem_filter.mp hj).2
  have hp : fetchRow (dIg (ix2 a 0)) = p := hd a p h0
  show Host.gather rowsGather h sI (ix2 a e') * (Host.gather entryGather dv sI (ix1 a) * Host.gather entryGather dv dIg (ix1 a))
    = Host.gather rowsGather (scaleRows h (colMat dv)) sI (ix2 a e') * dv (ix1 p)
  rw [rowsGather_apply, rowsGather_apply, entryGather_apply, entryGather_apply, scaleRows_apply, colMat_apply, hp, mul_assoc]

/-- THE TWO PROGRAMS AGREE. Each round of the arcs' form is the same round of the nodes' form by the law above: the first stage's
    scaled product is what the first sum of the nodes' form carries, the middle stage's is what the second carries, and the
    target's factor that the nodes' form applies at the start of the next stage is the one the law moves out of the sum. -/
theorem arcsForm_eq_nodesForm (x : Mat 100000 256) (sI dIg dI : Ids 1700000) (dv : Col 100000) (w1 : Mat 256 64) (b1 : Col 64)
    (w2 : Mat 64 64) (b2 : Col 64) (wo : Mat 64 40) (bo : Col 40)
    (hdv : ∀ v, 0 ≤ dv v ∧ dv v ≠ ⊤)
    (hd : ∀ (a : Fin 1700000) (v : Fin 100000), (dI (ix2 a 0)).toInt = (v.val : Int) → fetchRow (dIg (ix2 a 0)) = v) :
    arcsForm x sI dIg dI dv w1 b1 w2 b2 wo bo
      = nodesForm x sI dI (colMat dv) w1 (rowMat b1) w2 (rowMat b2) wo (rowMat bo) := by
  unfold arcsForm nodesForm stage0 stage1 stage2
  rw [aggArcs_eq _ dv sI dIg dI hdv hd, aggArcs_eq _ dv sI dIg dI hdv hd]

end Cert.Gcn

end
-- ==== Proof.RefWords.lean ====
/-
  The two facts the law of a round asks of the arc list.

  The factor. The number of arcs arriving at a node is zero plus a finite sum of ones: a real number that is not negative. The
  factor is its inverse square root where the number is positive, and zero elsewhere: again a real number that is not negative.

  The target words. The factor is fetched at the target word with a negative word first moved up by the number of nodes. An addend
  lands in row v only when the word, read signed, is v itself: such a word is not negative, so it is fetched as it is, and it
  names a row, so the fetch reads row v.
-/
import proofs.«152167_j14405320311543_2_alg».proof.Proof.RefRead
import proofs.«152167_j14405320311543_2_alg».proof.Proof.Rounds

noncomputable section

namespace Cert.ReferenceIdeal.Words

open Idealize.ShloMosaic Idealize.ShloMosaic.TcCoe Idealize.ShloMosaic.ValueIdx
open Cert.ReferenceIdeal Cert.ReferenceIdeal.ReadP Cert.Gcn

/-- The word the programs write for one denotes the real number one. -/
theorem one_word : Ideal.ofBits .f32 0x3F800000#32 = ((1 : ℝ) : EReal) := by
  simp [Ideal.ofBits, Ideal.ieee, -EReal.coe_mul]; norm_num

/-- A finite sum of ones is a real number that is not negative. -/
theorem sum_ones {ι : Type} (s : Finset ι) : ∃ r : ℝ, 0 ≤ r ∧ (∑ _j ∈ s, ((1 : ℝ) : EReal)) = (r : EReal) := by
  classical
  induction s using Finset.induction_on with
  | empty => exact ⟨0, le_rfl, by simp⟩
  | insert a s ha ih =>
    obtain ⟨r, hr, e⟩ := ih
    exact ⟨1 + r, by linarith, by rw [Finset.sum_insert ha, e, ← EReal.coe_add]⟩

/-- An accumulating scatter of ones into zeros leaves, at every place, zero plus a finite sum of ones: a real number that is not
    negative. Stated for any scatter, any list of words and any two arrays that read zero at the place and one everywhere. -/
theorem count_real {s si su : Shape} (d : ScatterDims s si su) {w : ℕ} (x : s.Idx → EReal) (idx : IVec si w)
    (upd : su.Idx → EReal) (i : s.Idx) (hx : x i = 0) (hu : ∀ j, upd j = ((1 : ℝ) : EReal)) :
    ∃ r : ℝ, 0 ≤ r ∧ Ideal.hostScatterAdd d x idx upd i = (r : EReal) := by
  unfold Ideal.hostScatterAdd
  rw [hx, zero_add]
  simp only [hu]
  exact sum_ones _

/-- The count of arrivals, as a whole array, is the exact accumulating scatter of the array of ones into the array of zeros at the
    raw target words. -/
theorem v11_fun (x1 : IVec S2x1600000 32) :
    val_main_v11 (F := Ideal) x1
      = Ideal.hostScatterAdd scatter_S100000_S1700000x1_S1700000_n_0_0_1 (val_main_v9 (F := Ideal)) (val_main_v10 (F := Ideal) x1)
          (val_main_v8 (F := Ideal)) := by
  unfold val_main_v11 Host.scatterAdd
  rw [Ideal.hostScatterAdd_def]

/-- The number of arcs arriving at a node is a real number that is not negative. The array of zeros reads zero at the node and the
    array of ones reads one at every arc; once that is known the three arrays are kept as unknowns, so that only the shape of the
    sum is used and no array is ever computed. -/
theorem arrivals_real (x1 : IVec S2x1600000 32) (v : S100000.Idx) :
    ∃ r : ℝ, 0 ≤ r ∧ val_main_v11 (F := Ideal) x1 v = (r : EReal) := by
  have hx : val_main_v9 (F := Ideal) v = 0 := by
    rw [val_main_v9_apply, val_main_cst_0_apply, Ideal.ofBits_def, Ideal.ofBits_zero_f32]
  have hu : ∀ j, val_main_v8 (F := Ideal) j = ((1 : ℝ) : EReal) := fun j => by
    rw [val_main_v8_apply, val_main_cst_apply, Ideal.ofBits_def, one_word]
  rw [v11_fun]
  generalize val_main_v9 (F := Ideal) = x at hx ⊢
  generalize val_main_v8 (F := Ideal) = u at hu ⊢
  generalize val_main_v10 (F := Ideal) x1 = idx
  exact count_real _ x idx u v hx hu

/-- The factor of every node is a real number that is not negative. -/
theorem factor_ok (x1 : IVec S2x1600000 32) (v : S100000.Idx) :
    0 ≤ val_main_v15 (F := Ideal) x1 v ∧ val_main_v15 (F := Ideal) x1 v ≠ ⊤ := by
  rw [val_main_v15_apply, val_main_v13_apply, val_main_v14_apply, val_main_call0_v1_apply, val_main_call0_v0_apply,
    val_main_cst_2_apply, val_main_v12_apply, val_main_cst_1_apply]
  obtain ⟨r, hr, e⟩ := arrivals_real x1 v
  rw [e]
  simp only [Ideal.ofBits_def, Ideal.ofBits_zero_f32, Ideal.cmpf_def, Ideal.hostUnary_rsqrt_def, Ideal.rsqrt_coe]
  unfold Scalar.select Ideal.cmp
  rw [if_neg (not_lt.mpr hr)]
  by_cases h0 : r = 0
  · subst h0
    simp
  · have hpos : 0 < r := lt_of_le_of_ne hr (Ne.symm h0)
    rw [if_neg h0]
    have hc : ((0 : EReal) < (r : EReal)) := by exact_mod_cast hpos
    simp only [hc, decide_true, BitVec.ofBool_true, if_true]
    exact ⟨EReal.coe_nonneg.mpr (inv_nonneg.mpr (Real.sqrt_nonneg r)), EReal.coe_ne_top _⟩

/-- The index a one-column list of words reads in the list itself. -/
theorem idx_v42 (a : Fin 1700000) : idx_main_v42 (ix2 a 0) = ix1 a :=
  funext fun b => Fin.ext (by match b with | ⟨0, _⟩ => rfl)
theorem idx_v28 (a : Fin 1700000) : idx_main_v28 (ix2 a 0) = ix1 a :=
  funext fun b => Fin.ext (by match b with | ⟨0, _⟩ => rfl)

/-- A target word that names row v is fetched, after the move of negative words, at row v. -/
theorem target_ok (x1 : IVec S2x1600000 32) (a : Fin 1700000) (v : Fin 100000)
    (h : (val_main_v42 (F := Ideal) x1 (ix2 a 0)).toInt = (v.val : Int)) :
    fetchRow (val_main_v28 (F := Ideal) x1 (ix2 a 0)) = v := by
  rw [val_main_v42_apply, idx_v42] at h
  rw [val_main_v28_apply, idx_v28, val_main_v27_apply, val_main_v24_apply, val_main_v26_apply, val_main_v23_apply,
    val_main_c_4_apply]
  generalize val_main_v7 (F := Ideal) x1 (ix1 a) = d at h ⊢
  have hv : v.val < 100000 := v.isLt
  have hnn : ¬ d.slt 0#32 := by
    rw [BitVec.slt]; simp only [BitVec.toInt_zero, decide_eq_true_eq]; omega
  have hsel : Scalar.select (IntOp.cmpi .slt d 0#32) (IntOp.addi d (val_main_v25 (F := Ideal) (ix1 a))) d = d := by
    unfold Scalar.select IntOp.cmpi
    simp [hnn]
  rw [hsel]
  refine Fin.ext ?_
  show min d.toInt.toNat 99999 = v.val
  omega

end Cert.ReferenceIdeal.Words

end
-- ==== Proof.SameWords.lean ====
/-
  The two programs compute the arcs' index words from the same arc list by the same operations, each program under its own
  names for the shapes and for the side conditions of the operations. A shape's two names abbreviate one literal, and a side
  condition is a proposition, so the two spellings are one term: first the raw lists (the listed arcs' words, then one loop
  per node), then the source list with its negative words moved up by the number of nodes, each as one column.
-/
import proofs.«152167_j14405320311543_2_alg».proof.Proof.KernelRunB
import proofs.«152167_j14405320311543_2_alg».proof.Proof.RefRead

set_option maxRecDepth 16384

noncomputable section

namespace Cert.Proof.Same

open Idealize.ShloMosaic

set_option maxHeartbeats 50000 in
/-- The listed arcs' source words, then one loop per node: one list in both programs. -/
theorem srcRaw_same (x1 : IVec Cert.KernelIdeal.S2x1600000 32) :
    Cert.KernelIdeal.RunValue.srcRaw x1 = Cert.ReferenceIdeal.ReadP.val_main_v6 (F := Ideal) x1 := by
  unfold Cert.KernelIdeal.RunValue.srcRaw Cert.ReferenceIdeal.ReadP.val_main_v6 Cert.ReferenceIdeal.ReadP.val_main_v1
    Cert.ReferenceIdeal.ReadP.val_main_v0 Cert.ReferenceIdeal.ReadP.val_main_v5
  rfl

set_option maxHeartbeats 50000 in
/-- The listed arcs' target words, then one loop per node: one list in both programs. -/
theorem dstRaw_same (x1 : IVec Cert.KernelIdeal.S2x1600000 32) :
    Cert.KernelIdeal.RunValue.dstRaw x1 = Cert.ReferenceIdeal.ReadP.val_main_v7 (F := Ideal) x1 := by
  unfold Cert.KernelIdeal.RunValue.dstRaw Cert.ReferenceIdeal.ReadP.val_main_v7 Cert.ReferenceIdeal.ReadP.val_main_v3
    Cert.ReferenceIdeal.ReadP.val_main_v2 Cert.ReferenceIdeal.ReadP.val_main_v5
  rfl

set_option maxHeartbeats 50000 in
/-- The source words with the negative ones moved up by the number of nodes, as one column: one term in both programs. -/
theorem srcWords_same (x1 : IVec Cert.KernelIdeal.S2x1600000 32) :
    Cert.KernelIdeal.RunValue.srcWords x1 = Cert.ReferenceIdeal.ReadP.val_main_v36 (F := Ideal) x1 := by
  rw [Cert.KernelIdeal.RunValue.srcWords_eq]
  unfold Cert.ReferenceIdeal.ReadP.val_main_v36 Cert.ReferenceIdeal.ReadP.val_main_v35 Cert.ReferenceIdeal.ReadP.val_main_v32
    Cert.ReferenceIdeal.ReadP.val_main_v34 Cert.ReferenceIdeal.ReadP.val_main_v31 Cert.ReferenceIdeal.ReadP.val_main_v33
    Cert.ReferenceIdeal.ReadP.val_main_c_6 Cert.ReferenceIdeal.ReadP.val_main_c_7
  rw [← srcRaw_same x1]
  generalize Cert.KernelIdeal.RunValue.srcRaw x1 = s
  unfold Cert.KernelIdeal.RunValue.wrapCol
  rfl

set_option maxHeartbeats 50000 in
/-- The target words as one column: one term in both programs. -/
theorem dstWords_same (x1 : IVec Cert.KernelIdeal.S2x1600000 32) :
    Cert.KernelIdeal.RunValue.dstWords x1 = Cert.ReferenceIdeal.ReadP.val_main_v42 (F := Ideal) x1 := by
  rw [Cert.KernelIdeal.RunValue.dstWords_eq]
  unfold Cert.ReferenceIdeal.ReadP.val_main_v42
  rw [← dstRaw_same x1]
  generalize Cert.KernelIdeal.RunValue.dstRaw x1 = d
  unfold Cert.KernelIdeal.RunValue.asCol
  rfl

end Cert.Proof.Same

end
-- ==== Proof.SameFactor.lean ====
/-
  The per-node factor of the two programs is one function of the arc list.

  Both programs count, for every node, the arcs arriving at it (the listed arcs and one loop per node: ones added into a vector
  of zeros at the arcs' targets), and take the inverse square root of the count where it is positive and zero elsewhere. One
  program then writes the vector as a one-column matrix. The operations are the same, applied to the same words of the arc
  list; the two texts differ only in the names they give the shapes and the side conditions, so the two counts are one
  function, and the column at row p is the vector at p.
-/
import proofs.«152167_j14405320311543_2_alg».proof.Proof.KernelRunB
import proofs.«152167_j14405320311543_2_alg».proof.Proof.RefRead
import proofs.«152167_j14405320311543_2_alg».proof.Proof.Spec
import Idealize.ShloMosaic.Lib.Pipeline.Value
import Idealize.ShloMosaic.Lib.ValueIdx

set_option maxRecDepth 16384

noncomputable section

namespace Cert.Proof.Same

open Idealize.ShloMosaic Idealize.ShloMosaic.ValueIdx

/-- The arcs' targets, the listed ones then one loop per node, as one column of words: the same in both programs. -/
theorem targets_same (x1 : IVec Cert.KernelIdeal.S2x1600000 32) :
    (broadcastInDim Cert.KernelIdeal.S1700000x1 ![0] Cert.KernelIdeal.Gen.bcast_S1700000_S1700000x1_0 (concatenate Cert.KernelIdeal.S1700000 0 [⟨Cert.KernelIdeal.S1600000, shapeCast Cert.KernelIdeal.S1600000 (extractStridedSlice Cert.KernelIdeal.S1x1600000 ![1, 0] x1 Cert.KernelIdeal.Gen.slices_S2x1600000_S1x1600000_1_0) Cert.KernelIdeal.Gen.shapeCasts_S1x1600000_S1600000⟩, ⟨Cert.KernelIdeal.S100000, iotaInDim Cert.KernelIdeal.S100000 32 0⟩] Cert.KernelIdeal.Gen.concatenates_S1600000_S100000_S1700000_d0))
      = Cert.ReferenceIdeal.ReadP.val_main_v10 (F := Ideal) x1 := by
  unfold Cert.ReferenceIdeal.ReadP.val_main_v10 Cert.ReferenceIdeal.ReadP.val_main_v7 Cert.ReferenceIdeal.ReadP.val_main_v3 Cert.ReferenceIdeal.ReadP.val_main_v2 Cert.ReferenceIdeal.ReadP.val_main_v5
  rfl

/-- The number of arcs arriving at each node, ones added into zeros at the arcs' targets: the same in both programs. -/
theorem count_same (x1 : IVec Cert.KernelIdeal.S2x1600000 32) :
    (Host.scatterAdd (F := Ideal) Cert.KernelIdeal.scatter_S100000_S1700000x1_S1700000_n_0_0_1 (broadcastInDim Cert.KernelIdeal.S100000 ![] Cert.KernelIdeal.Gen.bcast_S_S100000 (constant (F := Ideal) Cert.KernelIdeal.S_ .f32 0x00000000#32)) (broadcastInDim Cert.KernelIdeal.S1700000x1 ![0] Cert.KernelIdeal.Gen.bcast_S1700000_S1700000x1_0 (concatenate Cert.KernelIdeal.S1700000 0 [⟨Cert.KernelIdeal.S1600000, shapeCast Cert.KernelIdeal.S1600000 (extractStridedSlice Cert.KernelIdeal.S1x1600000 ![1, 0] x1 Cert.KernelIdeal.Gen.slices_S2x1600000_S1x1600000_1_0) Cert.KernelIdeal.Gen.shapeCasts_S1x1600000_S1600000⟩, ⟨Cert.KernelIdeal.S100000, iotaInDim Cert.KernelIdeal.S100000 32 0⟩] Cert.KernelIdeal.Gen.concatenates_S1600000_S100000_S1700000_d0)) (broadcastInDim Cert.KernelIdeal.S1700000 ![] Cert.KernelIdeal.Gen.bcast_S_S1700000 (constant (F := Ideal) Cert.KernelIdeal.S_ .f32 0x3F800000#32)))
      = Cert.ReferenceIdeal.ReadP.val_main_v11 (F := Ideal) x1 := by
  unfold Cert.ReferenceIdeal.ReadP.val_main_v11
  have hd : Cert.KernelIdeal.scatter_S100000_S1700000x1_S1700000_n_0_0_1 = Cert.ReferenceIdeal.scatter_S100000_S1700000x1_S1700000_n_0_0_1 := rfl
  have h9 : (broadcastInDim Cert.KernelIdeal.S100000 ![] Cert.KernelIdeal.Gen.bcast_S_S100000 (constant (F := Ideal) Cert.KernelIdeal.S_ .f32 0x00000000#32)) = Cert.ReferenceIdeal.ReadP.val_main_v9 (F := Ideal) := rfl
  have h8 : (broadcastInDim Cert.KernelIdeal.S1700000 ![] Cert.KernelIdeal.Gen.bcast_S_S1700000 (constant (F := Ideal) Cert.KernelIdeal.S_ .f32 0x3F800000#32)) = Cert.ReferenceIdeal.ReadP.val_main_v8 (F := Ideal) := rfl
  rw [hd, h9, h8, targets_same]

/-- The vector of 100000 written as a matrix of one column reads, at row p, the vector at p. -/
theorem column_apply {α : Type} (v : Cert.KernelIdeal.S100000.Idx → α) (p : Fin 100000) (u : Fin 1) :
    shapeCast Cert.KernelIdeal.S100000x1 v Cert.KernelIdeal.Gen.shapeCasts_S100000_S100000x1 (ix2 p u) = v (ix1 p) :=
  shapeCast_apply v Cert.KernelIdeal.Gen.shapeCasts_S100000_S100000x1 (ix2 p u) (ix1 p) (by
    rw [Shape.rowMajor_val_one, Shape.rowMajor_val_two]
    have hu : u.val = 0 := by omega
    show p.val = p.val * 1 + u.val
    omega)

/-- The per-node factor: the inverse square root of the number of arriving arcs where that number is positive, zero
    elsewhere. One program holds it as a one-column matrix, the other as a vector; they are the same numbers. -/
theorem factor_same (x1 : IVec Cert.KernelIdeal.S2x1600000 32) : Cert.KernelIdeal.RunValue.factor x1 = Cert.Gcn.colMat (Cert.ReferenceIdeal.ReadP.val_main_v15 (F := Ideal) x1) := by
  funext i
  obtain ⟨p, u, rfl⟩ : ∃ (p : Fin 100000) (u : Fin 1), i = ix2 p u := ⟨i 0, i 1, eq_ix2 i⟩
  rw [Cert.Gcn.colMat_apply]
  unfold Cert.KernelIdeal.RunValue.factor
  rw [count_same, column_apply]
  unfold Cert.ReferenceIdeal.ReadP.val_main_v15 Cert.ReferenceIdeal.ReadP.val_main_v13 Cert.ReferenceIdeal.ReadP.val_main_v14 Cert.ReferenceIdeal.ReadP.val_main_v12 Cert.ReferenceIdeal.ReadP.val_main_call0_v1
    Cert.ReferenceIdeal.ReadP.val_main_call0_v0 Cert.ReferenceIdeal.ReadP.val_main_cst_2 Cert.ReferenceIdeal.ReadP.val_main_cst_1
  rfl

end Cert.Proof.Same

end
-- ==== Proof.Claims.lean ====
/-
  The five claims of the certificate.

  The kernel spends each arc's weight on the nodes (three dense stages around two sums over the arcs arriving at each node); the
  reference spends it on the arc. Read at the extended reals, the kernel's run ends with its result array holding the nodes' form of
  the argument arrays (the three stages are the three grids' blocks put back together, and what lies between them is the
  program's own fetches and sums), the reference's run ends with the arcs' form, and the two forms are one function: every
  node's factor is a real number that is not negative, so it moves out of the sum over the arcs arriving at the node. The
  arc list enters both programs through the same operations, so the words and the factor the two forms are stated over are the
  same arrays; a bias vector enters the kernel reshaped to one row and the reference spread along a row, the same one-row matrix.

  The frames of the two kernel programs are their generated runs; the reference has no kernel and its frame is its run with the
  result dropped. The kernel's idealization rewrote no operation, so there is nothing to preserve.
-/
import proofs.«152167_j14405320311543_2_alg».proof.Defs
import proofs.«152167_j14405320311543_2_alg».proof.Proof.Gen.Kernel
import proofs.«152167_j14405320311543_2_alg».proof.Proof.Gen.Kernel.Frame
import proofs.«152167_j14405320311543_2_alg».proof.Proof.Gen.KernelIdeal
import proofs.«152167_j14405320311543_2_alg».proof.Proof.Gen.KernelIdeal.Frame
import proofs.«152167_j14405320311543_2_alg».proof.Proof.Gen.ReferenceIdeal
import proofs.«152167_j14405320311543_2_alg».proof.Proof.Gen.Pre_finite_inputs
import proofs.«152167_j14405320311543_2_alg».proof.Proof.KernelRun
import proofs.«152167_j14405320311543_2_alg».proof.Proof.RefArcs
import proofs.«152167_j14405320311543_2_alg».proof.Proof.RefWords
import proofs.«152167_j14405320311543_2_alg».proof.Proof.SameWords
import proofs.«152167_j14405320311543_2_alg».proof.Proof.SameFactor
import Idealize.ShloMosaic.Lib.ValueLayout

noncomputable section

namespace Cert.Proof.Claims

open Idealize.ShloMosaic Idealize.ShloMosaic.TcCoe Idealize.SL.Sem Idealize.ShloMosaic.ValueIdx Cert.Gcn

/-- A vector reshaped to one row is the vector as a one-row matrix. -/
theorem row_of_vector {n : ℕ} (b : Col n) (h : (⟨1, ![n]⟩ : Shape).ShapeCasts ⟨2, ![1, n]⟩) :
    shapeCast ⟨2, ![1, n]⟩ b h = rowMat b := funext fun i => by
  obtain ⟨u, e, rfl⟩ : ∃ (u : Fin 1) (e : Fin n), i = ix2 u e := ⟨i 0, i 1, eq_ix2 i⟩
  rw [shapeCast_a_1a_apply, rowMat_apply]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both runs end, the kernel's result at the nodes' form of its arguments and the
    reference's at the arcs' form of the same arrays: one function. -/
theorem algebraic : Cert.algebraic_KernelIdeal_ReferenceIdeal := by
  intro m ρ m' ρ' _ hagree
  refine ⟨_, Cert.KernelIdeal.RunValue.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v105_eq, a0, a1, a2, a3, a4, a5, a6, a7, Cert.ReferenceIdeal.Arcs.ref_eq,
    arcsForm_eq_nodesForm _ _ _ _ _ _ _ _ _ _ _ (Cert.ReferenceIdeal.Words.factor_ok _) (Cert.ReferenceIdeal.Words.target_ok _),
    ← Cert.Proof.Same.srcWords_same, ← Cert.Proof.Same.dstWords_same, ← Cert.Proof.Same.factor_same,
    row_of_vector, row_of_vector, row_of_vector]

end Cert.Proof.Claims

end
-- ==== Proof.lean ====
/-
  The certificate of a two-round graph convolution with a row softmax, a kernel that spends every arc's weight on the nodes
  against a reference that spends it on the arc: the witnesses of the programs' stated side conditions, then the three frames,
  the (empty) idealization ledger, and the equality of the two results over the extended reals (Proof/Claims.lean says how).
-/
import proofs.«152167_j14405320311543_2_alg».proof.Defs
import proofs.«152167_j14405320311543_2_alg».proof.Proof.Gen.Kernel
import proofs.«152167_j14405320311543_2_alg».proof.Proof.Gen.Kernel.Skeleton
import proofs.«152167_j14405320311543_2_alg».proof.Proof.Gen.Kernel.Launch
import proofs.«152167_j14405320311543_2_alg».proof.Proof.Gen.Kernel.Points
import proofs.«152167_j14405320311543_2_alg».proof.Proof.Gen.Kernel.Frame
import proofs.«152167_j14405320311543_2_alg».proof.Proof.Gen.KernelIdeal
import proofs.«152167_j14405320311543_2_alg».proof.Proof.Gen.KernelIdeal.Skeleton
import proofs.«152167_j14405320311543_2_alg».proof.Proof.Gen.KernelIdeal.Launch
import proofs.«152167_j14405320311543_2_alg».proof.Proof.Gen.KernelIdeal.Points
import proofs.«152167_j14405320311543_2_alg».proof.Proof.Gen.KernelIdeal.Frame
import proofs.«152167_j14405320311543_2_alg».proof.Proof.Gen.ReferenceIdeal
import proofs.«152167_j14405320311543_2_alg».proof.Proof.Gen.Pre_finite_inputs
import proofs.«152167_j14405320311543_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
